-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S258x512 : Shape := ⟨2, ![258, 512]⟩
abbrev S512 : Shape := ⟨1, ![512]⟩
abbrev S512x128 : Shape := ⟨2, ![512, 128]⟩
abbrev S128 : Shape := ⟨1, ![128]⟩
abbrev S2x640000 : Shape := ⟨2, ![2, 640000]⟩
abbrev S640000 : Shape := ⟨1, ![640000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S258x512 : S_.BroadcastsInDim S258x512 (![] : Fin 0 → Fin S258x512.rank)
  reducesTo_S258x512_S_d0_1 : S258x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg8 : FVec F S640000 .f32) (main_arg9 : FVec F S50000 .f32) (main_v33 : IVec S_ 1) : IVec S_ 1 :=
  let main_v34 : FVec F S640000 .f32 := Host.absf main_arg8
  let main_cst_12 : FVec F S_ .f32 := constant S_ .f32 0x7F800000#32
  let main_v35 : FVec F S640000 .f32 := broadcastInDim S640000 ![] bcast_S_S640000 main_cst_12
  let main_v36 : IVec S640000 1 := cmpf .olt main_v34 main_v35
  let main_c_13 : IVec S_ 1 := constantI S_ 1 1#1
  let main_v37 : IVec S_ 1 := (fun x v => Host.reduce IntOp.andi x v reducesTo_S640000_S_d0 h_S_) main_v36 main_c_13
  let main_v38 : IVec S_ 1 := andi main_v33 main_v37
  let main_v39 : FVec F S50000 .f32 := Host.absf main_arg9
  let main_cst_14 : FVec F S_ .f32 := constant S_ .f32 0x7F800000#32
  let main_v40 : FVec F S50000 .f32 := broadcastInDim S50000 ![] bcast_S_S50000 main_cst_14
  let main_v41 : IVec S50000 1 := cmpf .olt main_v39 main_v40
  let main_c_15 : IVec S_ 1 := constantI S_ 1 1#1
  let main_v42 : IVec S_ 1 := (fun x v => Host.reduce IntOp.andi x v reducesTo_S50000_S_d0 h_S_) main_v41 main_c_15
  let main_v43 : IVec S_ 1 := andi main_v38 main_v42
  main_v43

def fn_part1 {F : FTy → Type} [FloatOps F] (main_arg4 : FVec F S128 .f32) (main_arg5 : FVec F S128 .f32) (main_arg6 : FVec F S128 .f32) (main_arg8 : FVec F S640000 .f32) (main_arg9 : FVec F S50000 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : FVec F S258x512 .f32) (main_arg2 : FVec F S512 .f32) (main_arg3 : FVec F S512x128 .f32) (main_arg4 : FVec F S128 .f32) (main_arg5 : FVec F S128 .f32) (main_arg6 : FVec F S128 .f32) (main_arg7 : IVec S2x640000 32) (main_arg8 : FVec F S640000 .f32) (main_arg9 : FVec F S50000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S258x512 .f32 := Host.absf main_arg1
  let main_cst_0 : FVec F S_ .f32 := constant S_ .f32 0x7F800000#32
  let main_v5 : FVec F S258x512 .f32 := broadcastInDim S258x512 ![] bcast_S_S258x512 main_cst_0
  let main_v6 : IVec S258x512 1 := cmpf .olt main_v4 main_v5
  let main_c_1 : IVec S_ 1 := constantI S_ 1 1#1
  let main_v7 : IVec S_ 1 := (fun x v => Host.reduce IntOp.andi x v reducesTo_S258x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg8 main_arg9 main_v13 main_v16
-- ==== Kernel.lean ====
abbrev S50000x128 : Shape := ⟨2, ![50000, 128]⟩
abbrev S258x512 : Shape := ⟨2, ![258, 512]⟩
abbrev S512 : Shape := ⟨1, ![512]⟩
abbrev S512x128 : Shape := ⟨2, ![512, 128]⟩
abbrev S128 : Shape := ⟨1, ![128]⟩
abbrev S2x640000 : Shape := ⟨2, ![2, 640000]⟩
abbrev S640000 : Shape := ⟨1, ![640000]⟩
abbrev S50000 : Shape := ⟨1, ![50000]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S50000x2 : Shape := ⟨2, ![50000, 2]⟩
abbrev S128x512 : Shape := ⟨2, ![128, 512]⟩
abbrev S1x512 : Shape := ⟨2, ![1, 512]⟩
abbrev S2000x128 : Shape := ⟨2, ![2000, 128]⟩
abbrev S2000x2 : Shape := ⟨2, ![2000, 2]⟩
abbrev S2000x1 : Shape := ⟨2, ![2000, 1]⟩
abbrev S2000x512 : Shape := ⟨2, ![2000, 512]⟩
abbrev S1x128 : Shape := ⟨2, ![1, 128]⟩
abbrev S2000 : Shape := ⟨1, ![2000]⟩

abbrev nBuf : Space → Nat
  | .hbm => 44
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S258x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S2x640000, .i32⟩
  | .hbm, ⟨8, _⟩ => ⟨S640000, .f32⟩
  | .hbm, ⟨9, _⟩ => ⟨S50000, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S50000x128, .f32⟩
  | .hbm, ⟨25, _⟩ => ⟨S640000x1, .i32⟩
  | .hbm, ⟨26, _⟩ => ⟨S50000x128, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S50000x1, .f32⟩
  | .hbm, ⟨32, _⟩ => ⟨S50000x1, .f32⟩
  | .hbm, ⟨33, _⟩ => ⟨S50000x2, .f32⟩
  | .hbm, ⟨34, _⟩ => ⟨S128x512, .f32⟩
  | .hbm, ⟨35, _⟩ => ⟨S128x512, .bf16⟩
  | .hbm, ⟨36, _⟩ => ⟨S128x512, .f32⟩
  | .hbm, ⟨37, _⟩ => ⟨S128x512, .bf16⟩
  | .hbm, ⟨38, _⟩ => ⟨S1x512, .f32⟩
  | .hbm, ⟨39, _⟩ => ⟨S1x512, .bf16⟩
  | .hbm, ⟨40, _⟩ => ⟨S1x512, .f32⟩
  | .hbm, ⟨41, _⟩ => ⟨S1x512, .bf16⟩
  | .hbm, ⟨42, _⟩ => ⟨S512x128, .bf16⟩
  | .hbm, ⟨43, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x2, .f32⟩
  | .local _ .vmem, ⟨5, _⟩ => ⟨S2000x2, .f32⟩
  | .local _ .vmem, ⟨6, _⟩ => ⟨S128x512, .bf16⟩
  | .local _ .vmem, ⟨7, _⟩ => ⟨S128x512, .bf16⟩
  | .local _ .vmem, ⟨8, _⟩ => ⟨S1x512, .bf16⟩
  | .local _ .vmem, ⟨9, _⟩ => ⟨S1x512, .bf16⟩
  | .local _ .vmem, ⟨10, _⟩ => ⟨S512, .f32⟩
  | .local _ .vmem, ⟨11, _⟩ => ⟨S512x128, .bf16⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  concatenates_S50000x1_S50000x1_S50000x2_d1 : Shape.Concatenates [S50000x1, S50000x1] S50000x2 1
  slices_S258x512_S128x512_0_0 : S258x512.Slices ![0, 0] S128x512
  bitsLt_bf16_f32 : FTy.bits .bf16 < FTy.bits .f32
  slices_S258x512_S128x512_128_0 : S258x512.Slices ![128, 0] S128x512
  slices_S258x512_S1x512_256_0 : S258x512.Slices ![256, 0] S1x512
  slices_S258x512_S1x512_257_0 : S258x512.Slices ![257, 0] S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  slices_S2000x2_o0_1_S2000x1 : S2000x2.Slices ![0, 1] S2000x1
  broadcasts_S2000x1_S2000x128 : S2000x1.Broadcasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2000x1_S2000x512 : S2000x1.Broadcasts S2000x512
  broadcasts_S1x512_S2000x512 : S1x512.Broadcasts S2000x512
  inb_S512_S512_0 : ∀ a, (![0] : Fin 1 → Nat) a + S512.size a ≤ S512.size a
  h_S512 : 0 < S512.numel
  shapeCasts_S512_S1x512 : S512.ShapeCasts S1x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S50000x2.size a
  hwx0_2 : ∀ i : grid0.Coords, EltTy.bits .f32 = 32 ∨ (Rect.block (s := S50000x2) S2000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .bf16 = 32 ∨ (Rect.block (s := S1x512) S1x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .bf16 = 32 ∨ (Rect.block (s := S1x512) S1x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S512x128.size a
  hwx0_8 : ∀ i : grid0.Coords, EltTy.bits .bf16 = 32 ∨ (Rect.block (s := S512x128) S512x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S512x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x128 : Shape := ⟨2, ![50000, 128]⟩
abbrev S258x512 : Shape := ⟨2, ![258, 512]⟩
abbrev S512 : Shape := ⟨1, ![512]⟩
abbrev S512x128 : Shape := ⟨2, ![512, 128]⟩
abbrev S128 : Shape := ⟨1, ![128]⟩
abbrev S2x640000 : Shape := ⟨2, ![2, 640000]⟩
abbrev S640000 : Shape := ⟨1, ![640000]⟩
abbrev S50000 : Shape := ⟨1, ![50000]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S50000x258 : Shape := ⟨2, ![50000, 258]⟩
abbrev S50000x512 : Shape := ⟨2, ![50000, 512]⟩
abbrev S1x512 : Shape := ⟨2, ![1, 512]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S258x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S2x640000, .i32⟩
  | .hbm, ⟨8, _⟩ => ⟨S640000, .f32⟩
  | .hbm, ⟨9, _⟩ => ⟨S50000, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S50000x128, .f32⟩
  | .hbm, ⟨25, _⟩ => ⟨S640000x1, .i32⟩
  | .hbm, ⟨26, _⟩ => ⟨S50000x128, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000, .f32⟩
  | .hbm, ⟨35, _⟩ => ⟨S640000x1, .i32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x1, .f32⟩
  | .hbm, ⟨40, _⟩ => ⟨S50000x258, .f32⟩
  | .hbm, ⟨41, _⟩ => ⟨S50000x512, .f32⟩
  | .hbm, ⟨42, _⟩ => ⟨S1x512, .f32⟩
  | .hbm, ⟨43, _⟩ => ⟨S50000x512, .f32⟩
  | .hbm, ⟨44, _⟩ => ⟨S50000x512, .f32⟩
  | .hbm, ⟨45, _⟩ => ⟨S_, .f32⟩
  | .hbm, ⟨46, _⟩ => ⟨S50000x512, .f32⟩
  | .hbm, ⟨47, _⟩ => ⟨S50000x512, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000, .f32⟩
  | .hbm, ⟨55, _⟩ => ⟨S50000x1, .f32⟩
  | .hbm, ⟨56, _⟩ => ⟨S_, .f32⟩
  | .hbm, ⟨57, _⟩ => ⟨S50000x1, .f32⟩
  | .hbm, ⟨58, _⟩ => ⟨S50000x1, .f32⟩
  | .hbm, ⟨59, _⟩ => ⟨S_, .i32⟩
  | .hbm, ⟨60, _⟩ => ⟨S_, .f32⟩
  | .hbm, ⟨61, _⟩ => ⟨S50000, .f32⟩
  | .hbm, ⟨62, _⟩ => ⟨S50000x1, .f32⟩
  | .hbm, ⟨63, _⟩ => ⟨S_, .f32⟩
  | .hbm, ⟨64, _⟩ => ⟨S50000x1, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000x1, .f32⟩
  | .hbm, ⟨75, _⟩ => ⟨S50000x1, .f32⟩
  | .hbm, ⟨76, _⟩ => ⟨S50000x1, .f32⟩
  | .hbm, ⟨77, _⟩ => ⟨S_, .f32⟩
  | .hbm, ⟨78, _⟩ => ⟨S_, .i1⟩
  | .hbm, ⟨79, _⟩ => ⟨S_, .f32⟩
  | .hbm, ⟨80, _⟩ => ⟨S_, .f32⟩
  | .hbm, ⟨81, _⟩ => ⟨S50000x1, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x1, .f32⟩
  | .hbm, ⟨87, _⟩ => ⟨S50000x1, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_cst_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_cst_1 : Ref sig .tc := ⟨.hbm, 70, rfl⟩
abbrev main_call1_v8 : Ref sig .tc := ⟨.hbm, 71, rfl⟩
abbrev main_call1_cst_2 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_cst_3 : Ref sig .tc := ⟨.hbm, 77, rfl⟩
abbrev main_call1_v13 : Ref sig .tc := ⟨.hbm, 78, rfl⟩
abbrev main_call1_cst_4 : Ref sig .tc := ⟨.hbm, 79, rfl⟩
abbrev main_call1_call0_v0 : Ref sig .tc := ⟨.hbm, 80, rfl⟩
abbrev main_call1_call0_v1 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_6 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x1_S50000x1_S50000x258_d1 : Shape.Concatenates [S50000x128, S50000x128, S50000x1, S50000x1] S50000x258 1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x258_S258x512_S50000x512_1_0_0_1_n_n_wf : DotDims.WF S50000x258 S258x512 S50000x512 [1] [0] [0] [1] [] []
  dot_S50000x512_S512x128_S50000x128_1_0_0_1_n_n_wf : DotDims.WF S50000x512 S512x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x258_S258x512_S50000x512_1_0_0_1_n_n : DotDims S50000x258 S258x512 S50000x512 where
  lhsContracting := [1]
  rhsContracting := [0]
  lhsNonContracting := [0]
  rhsNonContracting := [1]
  lhsBatch := []
  rhsBatch := []
  wf := dot_S50000x258_S258x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.Spec.lean ====
/-
  One node's row of the residual graph layer, on the extended reals, in two arrangements.

  Inputs of a row: the node's 128 features `x`, its 128 un-normalised neighbour sums `a`, its degree `D`, its
  un-normalised distance sum `S`; the weights `W1` (258 x 512), `b1`, `W2` (512 x 128), `b2`, and the affine
  pair `g`, `be` of the normalisation. With `d = max D 1` the 258 input features are
      [ x | a / d | D | S / d ].
  * `hidK`: the hidden pre-activation as FOUR partial contractions over the blocks 0..127, 128..255, 256, 257 of
    `W1`'s rows, added left to right, then the bias.
  * `hidR`: the same as ONE contraction over all 258 positions of the concatenated features, then the bias.
  * `outOf`: the positive part, the second layer and the residual: `x + (max h 0 · W2 + b2)`.
  * `normK`: the row centred by its mean (sum / 128), times the reciprocal square root of (mean of squares + eps),
    times `g`, plus `be`.
  * `normR`: the centred row DIVIDED by the square root of the same quantity, times `g`, plus `be`.
  The words are kept as words: `w128` is the pattern of 128.0, `wEps` that of the f32 nearest 1e-5, `wOne` 1.0.
-/
import Idealize.ShloMosaic.PureOps.Ideal.Laws
import Idealize.ShloMosaic.Lib.ValueIdx

noncomputable section

open scoped BigOperators

namespace Cert.Spec

open Idealize.ShloMosaic Idealize.ShloMosaic.ValueIdx

abbrev w128 : EReal := Ideal.ofBits .f32 0x43000000#32
abbrev wEps : EReal := Ideal.ofBits .f32 0x3727C5AC#32
abbrev wOne : EReal := Ideal.ofBits .f32 0x3F800000#32

/-- The 258 concatenated input features of a row. -/
def feat (x a : Fin 128 → EReal) (D S : EReal) (k : Fin 258) : EReal :=
  if h : k.val < 128 then x ⟨k.val, h⟩
  else if h2 : k.val < 256 then Ideal.div (a ⟨k.val - 128, by omega⟩) (max D wOne)
  else if k.val = 256 then D
  else Ideal.div S (max D wOne)

/-- Hidden pre-activation, four partial contractions added left to right, then the bias. -/
def hidK (x a : Fin 128 → EReal) (D S : EReal) (W1 : Fin 258 → Fin 512 → EReal) (b1 : Fin 512 → EReal)
    (j : Fin 512) : EReal :=
  ((((∑ k : Fin 128, x k * W1 ⟨k.val, by omega⟩ j)
      + (∑ k : Fin 128, Ideal.div (a k) (max D wOne) * W1 ⟨128 + k.val, by omega⟩ j))
      + D * W1 ⟨256, by norm_num⟩ j)
      + Ideal.div S (max D wOne) * W1 ⟨257, by norm_num⟩ j)
    + b1 j

/-- Hidden pre-activation, one contraction over the 258 concatenated features, then the bias. -/
def hidR (x a : Fin 128 → EReal) (D S : EReal) (W1 : Fin 258 → Fin 512 → EReal) (b1 : Fin 512 → EReal)
    (j : Fin 512) : EReal :=
  (∑ k : Fin 258, feat x a D S k * W1 k j) + b1 j

/-- Positive part, second layer, residual. -/
def outOf (h : Fin 512 → EReal) (W2 : Fin 512 → Fin 128 → EReal) (b2 x : Fin 128 → EReal) (c : Fin 128) : EReal :=
  x c + ((∑ j : Fin 512, max (h j) 0 * W2 j c) + b2 c)

/-- The mean of a row: its sum over 128. -/
def mean (y : Fin 128 → EReal) : EReal := Ideal.div (∑ c : Fin 128, y c) w128

/-- Mean of the squared deviations, plus eps. -/
def spread (y : Fin 128 → EReal) : EReal :=
  Ideal.div (∑ c : Fin 128, (y c - mean y) * (y c - mean y)) w128 + wEps

/-- Normalisation by the reciprocal square root. -/
def normK (y g be : Fin 128 → EReal) (c : Fin 128) : EReal :=
  ((y c - mean y) * Ideal.rsqrt (spread y)) * g c + be c

/-- Normalisation by division by the square root. -/
def normR (y g be : Fin 128 → EReal) (c : Fin 128) : EReal :=
  Ideal.div (y c - mean y) (Ideal.sqrt (spread y)) * g c + be c

/-- A whole row in the first arrangement. -/
def rowK (x a : Fin 128 → EReal) (D S : EReal) (W1 : Fin 258 → Fin 512 → EReal) (b1 : Fin 512 → EReal)
    (W2 : Fin 512 → Fin 128 → EReal) (b2 g be : Fin 128 → EReal) : Fin 128 → EReal :=
  normK (outOf (hidK x a D S W1 b1) W2 b2 x) g be

/-- A whole row in the second arrangement. -/
def rowR (x a : Fin 128 → EReal) (D S : EReal) (W1 : Fin 258 → Fin 512 → EReal) (b1 : Fin 512 → EReal)
    (W2 : Fin 512 → Fin 128 → EReal) (b2 g be : Fin 128 → EReal) : Fin 128 → EReal :=
  normR (outOf (hidR x a D S W1 b1) W2 b2 x) g be

/-! Whole arrays: row `n` of the result from row `n` of the node arrays. -/

abbrev A2 (r c : Nat) := (⟨2, ![r, c]⟩ : Shape).Idx → EReal
abbrev A1 (r : Nat) := (⟨1, ![r]⟩ : Shape).Idx → EReal

def arrK (X A : A2 50000 128) (Dg Sm : A1 50000) (W1 : A2 258 512) (b1 : A1 512) (W2 : A2 512 128)
    (b2 g be : A1 128) : A2 50000 128 := fun i =>
  rowK (fun k => X (ix2 (i 0) k)) (fun k => A (ix2 (i 0) k)) (Dg (ix1 (i 0))) (Sm (ix1 (i 0)))
    (fun k j => W1 (ix2 k j)) (fun j => b1 (ix1 j)) (fun j c => W2 (ix2 j c)) (fun c => b2 (ix1 c))
    (fun c => g (ix1 c)) (fun c => be (ix1 c)) (i 1)

def arrR (X A : A2 50000 128) (Dg Sm : A1 50000) (W1 : A2 258 512) (b1 : A1 512) (W2 : A2 512 128)
    (b2 g be : A1 128) : A2 50000 128 := fun i =>
  rowR (fun k => X (ix2 (i 0) k)) (fun k => A (ix2 (i 0) k)) (Dg (ix1 (i 0))) (Sm (ix1 (i 0)))
    (fun k j => W1 (ix2 k j)) (fun j => b1 (ix1 j)) (fun j c => W2 (ix2 j c)) (fun c => b2 (ix1 c))
    (fun c => g (ix1 c)) (fun c => be (ix1 c)) (i 1)

end Cert.Spec

end
-- ==== Proof.Law.lean ====
/-
  The algebra of one row on the extended reals: the constants the row's words denote, and the equality of the
  two arrangements of a row (a regrouped finite sum; a reciprocal square root against a division by the root).
-/
import proofs.«106757_j32676111188087_2_alg».proof.Proof.Spec

noncomputable section

open scoped BigOperators

namespace Cert.Spec

open Idealize.ShloMosaic Idealize.ShloMosaic.ValueIdx

/-! ### The constants -/

/-- The word of `128.0` denotes the real `128`. -/
theorem w128_eq : w128 = ((128 : ℝ) : EReal) := by
  simp [Ideal.ofBits, Ideal.ieee, -EReal.coe_mul]; norm_num

theorem w128_pos : (0 : EReal) < w128 := by
  rw [w128_eq]; exact_mod_cast (by norm_num : (0 : ℝ) < 128)

/-- The word of eps is a positive normal number: sign `+`, a positive significand, a power of two. -/
theorem wEps_pos : (0 : EReal) < wEps := by
  simp [Ideal.ofBits, Ideal.ieee, -EReal.coe_mul]

theorem cnt_eq : w128 - (((0#32 : BitVec 32).toInt : ℝ) : EReal) = w128 := by
  simp

theorem cnt_gt : Ideal.cmp .ogt (w128 - (((0#32 : BitVec 32).toInt : ℝ) : EReal)) (Ideal.ofBits .f32 0x00000000#32) = 1#1 := by
  rw [cnt_eq, Ideal.ofBits_zero_f32]
  simp [Ideal.cmp, w128_pos]

/-! ### The regrouped contraction -/

/-- A sum over `256` positions is the sum over the lower `128` plus the sum over the upper `128`. -/
theorem sum_256_split (g : Fin 256 → EReal) :
    (∑ i : Fin 256, g i)
      = (∑ k : Fin 128, g ⟨k.val, by omega⟩) + (∑ k : Fin 128, g ⟨128 + k.val, by omega⟩) :=
  Fin.sum_univ_add (a := 128) (b := 128) g

/-- A sum over `258` positions splits into the blocks `0..127`, `128..255`, `256`, `257`. -/
theorem sum_258_split (f : Fin 258 → EReal) :
    (∑ k : Fin 258, f k)
      = (((∑ k : Fin 128, f ⟨k.val, by omega⟩) + (∑ k : Fin 128, f ⟨128 + k.val, by omega⟩))
          + f ⟨256, by norm_num⟩) + f ⟨257, by norm_num⟩ := by
  rw [Fin.sum_univ_castSucc (n := 257), Fin.sum_univ_castSucc (n := 256),
    sum_256_split (fun i => f (Fin.castSucc (Fin.castSucc i)))]
  rfl

/-- The concatenated features on the block `0..127`. -/
theorem feat_lo (x a : Fin 128 → EReal) (D S : EReal) (k : Fin 128) (h : k.val < 258) :
    feat x a D S ⟨k.val, h⟩ = x k := by
  have hk : k.val < 128 := k.isLt
  simp [feat, hk]

/-- The concatenated features on the block `128..255`. -/
theorem feat_mid (x a : Fin 128 → EReal) (D S : EReal) (k : Fin 128) (h : 128 + k.val < 258) :
    feat x a D S ⟨128 + k.val, h⟩ = Ideal.div (a k) (max D wOne) := by
  have hk : k.val < 128 := k.isLt
  have h1 : ¬ (128 + k.val < 128) := by omega
  have h2 : 128 + k.val < 256 := by omega
  have h3 : (⟨128 + k.val - 128, by omega⟩ : Fin 128) = k := by
    apply Fin.ext; show 128 + k.val - 128 = k.val; omega
  simp only [feat, h1, h2, dif_pos, dif_neg, not_false_eq_true, h3]

/-- The concatenated features at position `256`. -/
theorem feat_256 (x a : Fin 128 → EReal) (D S : EReal) (h : 256 < 258) :
    feat x a D S ⟨256, h⟩ = D := by
  simp [feat]

/-- The concatenated features at position `257`. -/
theorem feat_257 (x a : Fin 128 → EReal) (D S : EReal) (h : 257 < 258) :
    feat x a D S ⟨257, h⟩ = Ideal.div S (max D wOne) := by
  simp [feat]

/-- The hidden pre-activation: four partial contractions against one contraction over the concatenation. -/
theorem hidK_eq_hidR (x a : Fin 128 → EReal) (D S : EReal) (W1 : Fin 258 → Fin 512 → EReal) (b1 : Fin 512 → EReal) :
    hidK x a D S W1 b1 = hidR x a D S W1 b1 := by
  funext j
  unfold hidK hidR
  rw [sum_258_split (fun k => feat x a D S k * W1 k j)]
  simp only [feat_lo, feat_mid, feat_256, feat_257]

/-! ### The spread is positive -/

/-- A square is non-negative on the extended reals (the two infinities square to `⊤`). -/
theorem mul_self_nonneg_ereal (t : EReal) : 0 ≤ t * t := by
  induction t with
  | bot => simp
  | coe r => exact_mod_cast mul_self_nonneg r
  | top => simp

/-- Dividing a non-negative extended real by `128` keeps it non-negative. -/
theorem div_w128_nonneg {s : EReal} (hs : 0 ≤ s) : 0 ≤ Ideal.div s w128 := by
  rw [w128_eq, Ideal.div_coe (by norm_num : (128 : ℝ) ≠ 0)]
  exact EReal.mul_nonneg hs (by exact_mod_cast (by norm_num : (0 : ℝ) ≤ 1 / 128))

/-- The mean of squared deviations is non-negative, so adding the positive eps makes it positive. -/
theorem spread_pos (y : Fin 128 → EReal) : (0 : EReal) < spread y := by
  unfold spread
  have hs : (0 : EReal) ≤ ∑ c : Fin 128, (y c - mean y) * (y c - mean y) :=
    Finset.sum_nonneg (fun c _ => mul_self_nonneg_ereal _)
  exact lt_of_lt_of_le wEps_pos (le_add_of_nonneg_left (div_w128_nonneg hs))

/-! ### Reciprocal square root against division by the square root -/

/-- For a positive `v`, multiplying by the reciprocal square root of `v` is dividing by its square root:
    at `⊤` both sides are `t * 0`; at a positive real `r` both are `t * (√r)⁻¹`. -/
theorem mul_rsqrt_eq_div_sqrt {v : EReal} (hv : 0 < v) (t : EReal) :
    t * Ideal.rsqrt v = Ideal.div t (Ideal.sqrt v) := by
  induction v with
  | bot => exact absurd hv (not_lt_bot)
  | top => simp [Ideal.div]
  | coe r =>
    have hr : (0 : ℝ) < r := by exact_mod_cast hv
    have hr1 : ¬ r < 0 := not_lt.mpr hr.le
    have hr2 : r ≠ 0 := hr.ne'
    have hs : Real.sqrt r ≠ 0 := (Real.sqrt_pos.mpr hr).ne'
    have hs' : ((Real.sqrt r : ℝ) : EReal) ≠ 0 := by exact_mod_cast hs
    rw [Ideal.rsqrt_coe, Ideal.sqrt_coe, if_neg hr1, if_neg hr2, if_neg hr1, Ideal.div, if_neg hs',
      EReal.coe_inv]

/-! ### The two arrangements agree -/

theorem normK_eq_normR (y g be : Fin 128 → EReal) : normK y g be = normR y g be := by
  funext c
  unfold normK normR
  rw [mul_rsqrt_eq_div_sqrt (spread_pos y)]

theorem rowK_eq_rowR (x a : Fin 128 → EReal) (D S : EReal) (W1 : Fin 258 → Fin 512 → EReal) (b1 : Fin 512 → EReal)
    (W2 : Fin 512 → Fin 128 → EReal) (b2 g be : Fin 128 → EReal) :
    rowK x a D S W1 b1 W2 b2 g be = rowR x a D S W1 b1 W2 b2 g be := by
  unfold rowK rowR
  rw [hidK_eq_hidR, normK_eq_normR]

theorem arrK_eq_arrR (X A : A2 50000 128) (Dg Sm : A1 50000) (W1 : A2 258 512) (b1 : A1 512) (W2 : A2 512 128)
    (b2 g be : A1 128) :
    arrK X A Dg Sm W1 b1 W2 b2 g be = arrR X A Dg Sm W1 b1 W2 b2 g be := by
  funext i
  unfold arrK arrR
  rw [rowK_eq_rowR]

end Cert.Spec

end
-- ==== Proof.SpecBlocks.lean ====
/-
  The hidden layer of one row with the first-layer weight given as its four row blocks: the 128 rows that
  meet the node's own features, the 128 rows that meet the normalised neighbour sums, the row of the degree and
  the row of the mean distance. With the blocks cut from one 258-row weight this is `Spec.hidK`.
-/
import proofs.«106757_j32676111188087_2_alg».proof.Proof.Spec

noncomputable section

open scoped BigOperators

namespace Cert.Spec

open Idealize.ShloMosaic

/-- Four partial contractions added left to right, then the bias; the weight in four blocks. -/
def hidP (x a : Fin 128 → EReal) (D S : EReal) (Wa Wb : Fin 128 → Fin 512 → EReal) (wd ws b1 : Fin 512 → EReal)
    (j : Fin 512) : EReal :=
  ((((∑ k : Fin 128, x k * Wa k j) + (∑ k : Fin 128, Ideal.div (a k) (max D wOne) * Wb k j)) + D * wd j)
      + Ideal.div S (max D wOne) * ws j)
    + b1 j

/-- The blocks cut from one weight: rows 0..127, rows 128..255, row 256, row 257. -/
theorem hidP_blocks (x a : Fin 128 → EReal) (D S : EReal) (W1 : Fin 258 → Fin 512 → EReal) (b1 : Fin 512 → EReal) :
    hidP x a D S (fun k j => W1 ⟨k.val, by omega⟩ j) (fun k j => W1 ⟨128 + k.val, by omega⟩ j)
        (fun j => W1 ⟨256, by norm_num⟩ j) (fun j => W1 ⟨257, by norm_num⟩ j) b1
      = hidK x a D S W1 b1 := rfl

end Cert.Spec

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.KPay.lean ====
/-
  What the body computes for a block of 2000 rows, read at one entry, on the extended reals.

  From the block's loads — the node features x0, the un-normalised neighbour sums x1, the two-column block x2
  (degree, distance sum), the two 128 x 512 weight blocks x3, x4, the two 1 x 512 weight rows x5, x6, the bias x7,
  the second weight x8 and its bias x9, the affine pair x10, x11 —
  * the hidden pre-activation at (p, j) is `Spec.hidP` of row p: two products into zero, the two rank-one terms and
    the bias (`pay2_apply`);
  * the stored value at (p, q) is `Spec.normK` of `Spec.outOf` of row p of a hidden array: the positive part, the
    second product, the residual, then the row centred by its lane sum over 128 and scaled by the reciprocal
    square root of the mean squared deviation plus eps (`pay1_apply`).
  Every change of float format is the identity on the extended reals; a lane sum from the zero word is the plain sum.
-/
import proofs.«106757_j32676111188087_2_alg».proof.Proof.SpecBlocks
import proofs.«106757_j32676111188087_2_alg».proof.Proof.LibPlainDot
import proofs.«106757_j32676111188087_2_alg».proof.Proof.LibColumn
import proofs.«106757_j32676111188087_2_alg».proof.Proof.Gen.KernelIdeal.Skeleton
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- Column 0 of a two-column block, as a column. -/
theorem col0_apply (X : Vec Ideal S2000x2 .f32) (h : S2000x2.Slices ![0, 0] S2000x1) (p : Fin 2000) :
    extractStridedSlice S2000x1 ![0, 0] X h (ix2 p (0 : Fin 1)) = X (ix2 p (0 : Fin 2)) :=
  slice2_axis1_apply 0 X h p 0 0 rfl

/-- Column 1 of a two-column block, as a column. -/
theorem col1_apply (X : Vec Ideal S2000x2 .f32) (h : S2000x2.Slices ![0, 1] S2000x1) (p : Fin 2000) :
    extractStridedSlice S2000x1 ![0, 1] X h (ix2 p (0 : Fin 1)) = X (ix2 p (1 : Fin 2)) :=
  slice2_axis1_apply 1 X h p 0 1 rfl

theorem pay2_apply (x0 x1 : Vec Ideal S2000x128 .f32) (x2 : Vec Ideal S2000x2 .f32) (x3 x4 : Vec Ideal S128x512 .bf16)
    (x5 x6 : Vec Ideal S1x512 .bf16) (x7 : Vec Ideal S512 .f32) (p : Fin 2000) (j : Fin 512) :
    k0_pay2 x0 x1 x2 x3 x4 x5 x6 x7 (ix2 p j)
      = Cert.Spec.hidP (fun k => x0 (ix2 p k)) (fun k => x1 (ix2 p k)) (x2 (ix2 p (0 : Fin 2))) (x2 (ix2 p (1 : Fin 2)))
          (fun k j => x3 (ix2 k j)) (fun k j => x4 (ix2 k j)) (fun j => x5 (ix2 (0 : Fin 1) j)) (fun j => x6 (ix2 (0 : Fin 1) j))
          (fun j => x7 (ix1 j)) j := by
  unfold k0_pay2
  have hd : dot_S2000x128_S128x512_S2000x512_1_0_0_1_n_n = DotDims.plain 2000 128 512 := rfl
  simp only [hd, shapeCast_self, addf_apply, mulf_apply, Cert.Lib.PlainDot.matmul_zero_apply, truncf_apply, extf_apply,
    divf_apply, maximumf_apply, broadcast_apply, Cert.Lib.Column.colBroadcast_apply, broadcastTo_1b_ab_apply,
    shapeCast_a_1a_apply, col0_apply, col1_apply, Ideal.ofBits_def]
  rw [col0_apply x2 _ p, col1_apply x2 _ p]
  rfl

/-- Over row `p` of a 2000 x 128 block, the index with `k` put on the lane axis is `(p, k)`. -/
theorem lift_row (h : S2000x128.Reduces [1] S2000) (p : Fin 2000) (k : Fin 128) : h.lift (ix1 p) k = ix2 p k := by
  funext a
  apply Fin.ext
  match a with
  | ⟨0, _⟩ => rfl
  | ⟨1, _⟩ => rfl

/-- A lane sum of a 2000 x 128 block at row `p`, from the zero word. -/
theorem rowSum_apply (src : FVec Ideal S2000x128 .f32) (h : S2000x128.Reduces [1] S2000)
    (hφ : FKind.Formats .f32) (hacc : (0x00000000#32 : BitVec 32) = 0x00000000#32) (p : Fin 2000) :
    multiReduction .add [1] S2000 src 0x00000000#32 h hφ hacc (ix1 p) = ∑ k : Fin 128, src (ix2 p k) :=
  (Ideal.multiReduction_add_single src 0x00000000#32 h hφ hacc (ix1 p)).trans
    (Finset.sum_congr rfl fun k _ => congrArg src (lift_row h p k))

theorem rsqrt_apply {s : Shape} (a : FVec Ideal s .f32) (i : s.Idx) : rsqrt a i = Ideal.rsqrt (a i) := rfl

theorem pay1_apply (x0 : Vec Ideal S2000x128 .f32) (hh : FVec Ideal S2000x512 .f32) (x8 : Vec Ideal S512x128 .bf16)
    (x9 x10 x11 : Vec Ideal S128 .f32) (p : Fin 2000) (q : Fin 128) :
    k0_pay1 x0 hh (k0_pay3 (F := Ideal)) x8 x9 x10 x11 (ix2 p q)
      = Cert.Spec.normK
          (Cert.Spec.outOf (fun j => hh (ix2 p j)) (fun j c => x8 (ix2 j c)) (fun c => x9 (ix1 c)) (fun k => x0 (ix2 p k)))
          (fun c => x10 (ix1 c)) (fun c => x11 (ix1 c)) q := by
  unfold k0_pay1 k0_pay3
  have hd : dot_S2000x512_S512x128_S2000x128_1_0_0_1_n_n = DotDims.plain 2000 512 128 := rfl
  simp only [hd, shapeCast_self, addf_apply, mulf_apply, subf_apply, Cert.Lib.PlainDot.matmul_zero_apply, truncf_apply,
    divf_apply, maximumf_apply, broadcast_apply, Cert.Lib.Column.colBroadcast_apply, broadcastTo_1b_ab_apply,
    shapeCast_a_1a_apply, Cert.Lib.Column.col_apply, rsqrt_apply, Ideal.ofBits_def,
    rowSum_apply (h := reduces_S2000x128_S2000) (hφ := k0_pay1._proof_2) (hacc := k0_pay1._proof_3), Ideal.ofBits_zero_f32]
  rfl

end Cert.KernelIdeal.Body

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.KPrefix.lean ====
/-
  The kernel program's host prefix: what each operand array of the region holds when the region is entered, as a
  term of the launched argument arrays.

    src / dst      the edge sources as an index column; the edge targets, a negative one wrapped by +50000, as a column
    aggRaw         the rows of x gathered at the targets and summed into the sources, from zero
    distSum        the edge distances summed into the sources, from zero
  These are the same compositions of host operations as the reference program's, over this program's own names.
  The remaining operands are: the two-column array [ degrees | distSum ]; the four row blocks 0..127, 128..255,
  256, 257 of the first weight matrix; the second weight matrix. A narrowing of the float format changes nothing
  on the extended reals, so each of those blocks reads as the launched matrix at the shifted row.
-/
import proofs.«106757_j32676111188087_2_alg».proof.Proof.Gen.KernelIdeal.Frame
import proofs.«106757_j32676111188087_2_alg».proof.Proof.LibColumn
import proofs.«106757_j32676111188087_2_alg».proof.Proof.LibConcatRead
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.KPrefix

/-! ### The stages as terms, at any float values -/

section Terms

open Cert.KernelIdeal Idealize.ShloMosaic
open Cert.KernelIdeal.Facts₀ Cert.KernelIdeal.Facts

variable {F : FTy → Type} [FloatOps F] [Cert.KernelIdeal.Facts]

/-- Contents of a float array / an index array of a shape. -/
abbrev FA (s : Shape) := (⟨s, .f32⟩ : BufTy).Contents (Elt F)
abbrev IA (s : Shape) := (⟨s, .i32⟩ : BufTy).Contents (Elt F)

def src (ei : IA (F := F) S2x640000) : IA (F := F) S640000x1 :=
  broadcastInDim S640000x1 ![0] bcast_S640000_S640000x1_0
    (shapeCast S640000 (extractStridedSlice S1x640000 ![0, 0] ei slices_S2x640000_S1x640000_0_0) shapeCasts_S1x640000_S640000)

def dstRaw (ei : IA (F := F) S2x640000) : IA (F := F) S640000 :=
  shapeCast S640000 (extractStridedSlice S1x640000 ![1, 0] ei slices_S2x640000_S1x640000_1_0) shapeCasts_S1x640000_S640000

def dst (ei : IA (F := F) S2x640000) : IA (F := F) S640000x1 :=
  broadcastInDim S640000x1 ![0] bcast_S640000_S640000x1_0
    (select (cmpi .slt (dstRaw (F := F) ei) (broadcastInDim S640000 ![] bcast_S_S640000 (constantI S_ 32 0#32)))
      (addi (dstRaw (F := F) ei) (broadcastInDim S640000 ![] bcast_S_S640000 (constantI S_ 32 50000#32)))
      (dstRaw (F := F) ei))

def aggRaw (x : FA (F := F) S50000x128) (ei : IA (F := F) S2x640000) : FA (F := F) S50000x128 :=
  Host.scatterAdd scatter_S50000x128_S640000x1_S640000x128_1_0_0_1
    (broadcastInDim S50000x128 ![] bcast_S_S50000x128 (constant S_ .f32 0x00000000#32))
    (src (F := F) ei)
    (Host.gather gather_S50000x128_S640000x1_S640000x128_1_0_n_n_0_1_1128 x (dst (F := F) ei))

def distSum (ed : FA (F := F) S640000) (ei : IA (F := F) S2x640000) : FA (F := F) S50000 :=
  Host.scatterAdd scatter_S50000_S640000x1_S640000_n_0_0_1
    (broadcastInDim S50000 ![] bcast_S_S50000 (constant S_ .f32 0x00000000#32))
    (src (F := F) ei) ed

end Terms

/-! ### The operand arrays at the region's entry, on the extended reals -/

section Reads

open Cert.KernelIdeal Cert.KernelIdeal.Gen Idealize.ShloMosaic Idealize.ShloMosaic.ValueIdx Idealize.ShloMosaic.TcCoe
open Idealize.ShloMosaic.StableHlo

variable (m : (ℓ : Loc nD τ sig) → Buf (Elt Ideal) ℓ) (c : Dev nD)

/-- The neighbour sums: the gathered rows summed into the sources. -/
theorem V13 : (V m c main_v13 : S50000x128.Idx → EReal)
    = aggRaw (F := Ideal) (m ((c : Thread nD τ).loc main_arg0)) (m ((c : Thread nD τ).loc main_arg7)) := by
  dsimp only [Gen.V, Gen.hostOps0]; after_results_simp; rfl

/-- The two-column operand as a term: the degrees and the distance sums, each as a column, side by side. -/
theorem V19_term : (V m c main_v19 : S50000x2.Idx → EReal)
    = concatenate S50000x2 1
        [⟨S50000x1, shapeCast S50000x1 (m ((c : Thread nD τ).loc main_arg9) : S50000.Idx → EReal) shapeCasts_S50000_S50000x1⟩,
         ⟨S50000x1, shapeCast S50000x1
            (distSum (F := Ideal) (m ((c : Thread nD τ).loc main_arg8)) (m ((c : Thread nD τ).loc main_arg7)) : S50000.Idx → EReal)
            shapeCasts_S50000_S50000x1⟩]
        concatenates_S50000x1_S50000x1_S50000x2_d1 := by
  dsimp only [Gen.V, Gen.hostOps0]; after_results_simp; rfl

/-- Column 0 of the two-column operand: the degrees. -/
theorem V19_0 (n : Fin 50000) :
    (V m c main_v19 : S50000x2.Idx → EReal) (ix2 n (0 : Fin 2)) = m ((c : Thread nD τ).loc main_arg9) (ix1 n) := by
  rw [V19_term]
  exact (Cert.Lib.ConcatRead.cols_left _ _ _ n (0 : Fin 2) (0 : Fin 1) rfl).trans (Cert.Lib.Column.col_apply _ _ n)

/-- Column 1 of the two-column operand: the distance sums. -/
theorem V19_1 (n : Fin 50000) :
    (V m c main_v19 : S50000x2.Idx → EReal) (ix2 n (1 : Fin 2))
      = distSum (F := Ideal) (m ((c : Thread nD τ).loc main_arg8)) (m ((c : Thread nD τ).loc main_arg7)) (ix1 n) := by
  rw [V19_term]
  exact (Cert.Lib.ConcatRead.cols_right _ _ _ n (1 : Fin 2) (0 : Fin 1) rfl).trans (Cert.Lib.Column.col_apply _ _ n)

/-- Rows 0..127 of the first weight matrix, narrowed. -/
theorem V21 (k : Fin 128) (j : Fin 512) :
    (V m c main_v21 : S128x512.Idx → EReal) (ix2 k j)
      = m ((c : Thread nD τ).loc main_arg1) (ix2 (⟨k.val, by omega⟩ : Fin 258) j) := by
  have e : (V m c main_v21 : S128x512.Idx → EReal)
      = extractStridedSlice S128x512 ![0, 0] (m ((c : Thread nD τ).loc main_arg1) : S258x512.Idx → EReal)
          slices_S258x512_S128x512_0_0 := by
    dsimp only [Gen.V, Gen.hostOps0]; after_results_simp; rfl
  rw [e]
  exact slice2_axis0_apply 0 _ _ k j ⟨k.val, by omega⟩ (Nat.zero_add _).symm

/-- Rows 128..255 of the first weight matrix, narrowed. -/
theorem V23 (k : Fin 128) (j : Fin 512) :
    (V m c main_v23 : S128x512.Idx → EReal) (ix2 k j)
      = m ((c : Thread nD τ).loc main_arg1) (ix2 (⟨128 + k.val, by omega⟩ : Fin 258) j) := by
  have e : (V m c main_v23 : S128x512.Idx → EReal)
      = extractStridedSlice S128x512 ![128, 0] (m ((c : Thread nD τ).loc main_arg1) : S258x512.Idx → EReal)
          slices_S258x512_S128x512_128_0 := by
    dsimp only [Gen.V, Gen.hostOps0]; after_results_simp; rfl
  rw [e]
  exact slice2_axis0_apply 128 _ _ k j ⟨128 + k.val, by omega⟩ rfl

/-- Row 256 of the first weight matrix, narrowed. -/
theorem V25 (j : Fin 512) :
    (V m c main_v25 : S1x512.Idx → EReal) (ix2 (0 : Fin 1) j)
      = m ((c : Thread nD τ).loc main_arg1) (ix2 (⟨256, by norm_num⟩ : Fin 258) j) := by
  have e : (V m c main_v25 : S1x512.Idx → EReal)
      = extractStridedSlice S1x512 ![256, 0] (m ((c : Thread nD τ).loc main_arg1) : S258x512.Idx → EReal)
          slices_S258x512_S1x512_256_0 := by
    dsimp only [Gen.V, Gen.hostOps0]; after_results_simp; rfl
  rw [e]
  exact slice2_axis0_apply 256 _ _ (0 : Fin 1) j ⟨256, by norm_num⟩ rfl

/-- Row 257 of the first weight matrix, narrowed. -/
theorem V27 (j : Fin 512) :
    (V m c main_v27 : S1x512.Idx → EReal) (ix2 (0 : Fin 1) j)
      = m ((c : Thread nD τ).loc main_arg1) (ix2 (⟨257, by norm_num⟩ : Fin 258) j) := by
  have e : (V m c main_v27 : S1x512.Idx → EReal)
      = extractStridedSlice S1x512 ![257, 0] (m ((c : Thread nD τ).loc main_arg1) : S258x512.Idx → EReal)
          slices_S258x512_S1x512_257_0 := by
    dsimp only [Gen.V, Gen.hostOps0]; after_results_simp; rfl
  rw [e]
  exact slice2_axis0_apply 257 _ _ (0 : Fin 1) j ⟨257, by norm_num⟩ rfl

/-- The second weight matrix, narrowed: the launched matrix. -/
theorem V28 : (V m c main_v28 : S512x128.Idx → EReal) = m ((c : Thread nD τ).loc main_arg3) := by
  dsimp only [Gen.V, Gen.hostOps0]; after_results_simp; rfl

end Reads

end Cert.KernelIdeal.KPrefix

end
-- ==== Proof.KFinal.lean ====
/-
  The kernel's output array after its run as ONE function of the launch contents.

  The grid has 25 points. At point `t` the three row windows (the node features, the neighbour sums, the
  degree / distance-sum pair) and the output window hold rows `2000 t … 2000 t + 1999` of their arrays; the other
  nine windows hold their whole arrays at every point. So entry `(p, q)` of what point `t` writes back is the
  row function (first arrangement) of row `2000 t + p` of the node arrays and of the weights: the four first-layer
  weight blocks are the row ranges 0..127, 128..255, 256, 257 of the one 258-row weight. Row `r` of the output lies
  in the block of point `r / 2000`, so the 25 blocks cover the array and the array ends at that function everywhere.
-/
import proofs.«106757_j32676111188087_2_alg».proof.Proof.Gen.KernelIdeal.Value
import proofs.«106757_j32676111188087_2_alg».proof.Proof.SpecBlocks
import proofs.«106757_j32676111188087_2_alg».proof.Proof.KPay
import proofs.«106757_j32676111188087_2_alg».proof.Proof.KPrefix
import Idealize.ShloMosaic.Lib.ValueIdx
import Idealize.ShloMosaic.Lib.Pipeline.Value

-- one decided fact at a time: deciding over the grid's points in parallel holds much more memory
set_option Elab.async false

noncomputable section

open scoped BigOperators

namespace Cert.KernelIdeal.KFinal

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of what a point writes, over variable blocks and arrays -/

/-- Entry `(p, q)` of the body's result on twelve blocks, when row `p` of the three row blocks is row `n` of the node
    arrays, the four first-layer weight blocks are the row ranges 0..127, 128..255, 256, 257 of one 258-row weight and
    the other blocks are their arrays: the whole-array row function at `(n, q)`. -/
theorem point_entry
    (M0 Ag : S50000x128.Idx → EReal) (Dg Sm : S50000.Idx → EReal) (M1 : S258x512.Idx → EReal) (M2 : S512.Idx → EReal)
    (M3 : S512x128.Idx → EReal) (M4 M5 M6 : S128.Idx → EReal)
    (x0 x1 : Vec Ideal S2000x128 .f32) (x2 : Vec Ideal S2000x2 .f32) (x3 x4 : Vec Ideal S128x512 .bf16)
    (x5 x6 : Vec Ideal S1x512 .bf16) (x7 : Vec Ideal S512 .f32) (x8 : Vec Ideal S512x128 .bf16)
    (x9 x10 x11 : Vec Ideal S128 .f32) (n : Fin 50000) (p : Fin 2000)
    (h0 : ∀ k : Fin 128, x0 (ix2 p k) = M0 (ix2 n k)) (h1 : ∀ k : Fin 128, x1 (ix2 p k) = Ag (ix2 n k))
    (h2 : x2 (ix2 p (0 : Fin 2)) = Dg (ix1 n)) (h2' : x2 (ix2 p (1 : Fin 2)) = Sm (ix1 n))
    (h3 : ∀ (k : Fin 128) (j : Fin 512), x3 (ix2 k j) = M1 (ix2 (⟨k.val, by omega⟩ : Fin 258) j))
    (h4 : ∀ (k : Fin 128) (j : Fin 512), x4 (ix2 k j) = M1 (ix2 (⟨128 + k.val, by omega⟩ : Fin 258) j))
    (h5 : ∀ j : Fin 512, x5 (ix2 (0 : Fin 1) j) = M1 (ix2 (⟨256, by norm_num⟩ : Fin 258) j))
    (h6 : ∀ j : Fin 512, x6 (ix2 (0 : Fin 1) j) = M1 (ix2 (⟨257, by norm_num⟩ : Fin 258) j))
    (h7 : ∀ j : Fin 512, x7 (ix1 j) = M2 (ix1 j)) (h8 : ∀ (j : Fin 512) (c : Fin 128), x8 (ix2 j c) = M3 (ix2 j c))
    (h9 : ∀ c : Fin 128, x9 (ix1 c) = M4 (ix1 c)) (h10 : ∀ c : Fin 128, x10 (ix1 c) = M5 (ix1 c))
    (h11 : ∀ c : Fin 128, x11 (ix1 c) = M6 (ix1 c)) (q : Fin 128) :
    k0_pay1 x0 (k0_pay2 x0 x1 x2 x3 x4 x5 x6 x7) (k0_pay3 (F := Ideal)) x8 x9 x10 x11 (ix2 p q)
      = Cert.Spec.arrK M0 Ag Dg Sm M1 M2 M3 M4 M5 M6 (ix2 n q) := by
  rw [Cert.KernelIdeal.Body.pay1_apply]
  simp only [Cert.KernelIdeal.Body.pay2_apply, h0, h1, h2, h2', h3, h4, h5, h6, h7, h8, h9, h10, h11]
  rfl

variable (m : (ℓ : Loc nD τ sig) → Buf (Elt Ideal) ℓ) (ρ : Dev nD → PrngReg)

/-! ## The index maps, decided over the 25 points -/

theorem hz2 : (![0, 0] : Fin 2 → Nat) = fun _ => 0 := funext fun a => by fin_cases a <;> rfl
theorem hz1 : (![0] : Fin 1 → Nat) = fun _ => 0 := funext fun a => by fin_cases a; rfl

/-- Window 0's block index at point `t` is `(t, 0)`: it moves down the rows with the point. -/
theorem idx0 : ∀ t : Fin cfg0.N, win0_0.index t (0 : Fin 2) = t.val ∧ win0_0.index t (1 : Fin 2) = 0 :=
  (by decide +kernel : ∀ t : Fin grid0.N, _)
/-- Window 1's block index at point `t` is `(t, 0)`: it moves down the rows with the point. -/
theorem idx1 : ∀ t : Fin cfg0.N, win0_1.index t (0 : Fin 2) = t.val ∧ win0_1.index t (1 : Fin 2) = 0 :=
  (by decide +kernel : ∀ t : Fin grid0.N, _)
/-- Window 2's block index at point `t` is `(t, 0)`: it moves down the rows with the point. -/
theorem idx2 : ∀ t : Fin cfg0.N, win0_2.index t (0 : Fin 2) = t.val ∧ win0_2.index t (1 : Fin 2) = 0 :=
  (by decide +kernel : ∀ t : Fin grid0.N, _)
/-- Window 3's block index is zero at every point: its block is its whole array. -/
theorem idx3 : ∀ t : Fin cfg0.N, win0_3.index t (0 : Fin 2) = 0 ∧ win0_3.index t (1 : Fin 2) = 0 :=
  (by decide +kernel : ∀ t : Fin grid0.N, _)
/-- Window 4's block index is zero at every point: its block is its whole array. -/
theorem idx4 : ∀ t : Fin cfg0.N, win0_4.index t (0 : Fin 2) = 0 ∧ win0_4.index t (1 : Fin 2) = 0 :=
  (by decide +kernel : ∀ t : Fin grid0.N, _)
/-- Window 5's block index is zero at every point: its block is its whole array. -/
theorem idx5 : ∀ t : Fin cfg0.N, win0_5.index t (0 : Fin 2) = 0 ∧ win0_5.index t (1 : Fin 2) = 0 :=
  (by decide +kernel : ∀ t : Fin grid0.N, _)
/-- Window 6's block index is zero at every point: its block is its whole array. -/
theorem idx6 : ∀ t : Fin cfg0.N, win0_6.index t (0 : Fin 2) = 0 ∧ win0_6.index t (1 : Fin 2) = 0 :=
  (by decide +kernel : ∀ t : Fin grid0.N, _)
/-- Window 7's block index is zero at every point: its block is its whole array. -/
theorem idx7 : ∀ t : Fin cfg0.N, win0_7.index t (0 : Fin 1) = 0 :=
  (by decide +kernel : ∀ t : Fin grid0.N, _)
/-- Window 8's block index is zero at every point: its block is its whole array. -/
theorem idx8 : ∀ t : Fin cfg0.N, win0_8.index t (0 : Fin 2) = 0 ∧ win0_8.index t (1 : Fin 2) = 0 :=
  (by decide +kernel : ∀ t : Fin grid0.N, _)
/-- Window 9's block index is zero at every point: its block is its whole array. -/
theorem idx9 : ∀ t : Fin cfg0.N, win0_9.index t (0 : Fin 1) = 0 :=
  (by decide +kernel : ∀ t : Fin grid0.N, _)
/-- Window 10's block index is zero at every point: its block is its whole array. -/
theorem idx10 : ∀ t : Fin cfg0.N, win0_10.index t (0 : Fin 1) = 0 :=
  (by decide +kernel : ∀ t : Fin grid0.N, _)
/-- Window 11's block index is zero at every point: its block is its whole array. -/
theorem idx11 : ∀ t : Fin cfg0.N, win0_11.index t (0 : Fin 1) = 0 :=
  (by decide +kernel : ∀ t : Fin grid0.N, _)
/-- The output window's block index at point `t` is `(t, 0)`. -/
theorem idx12 : ∀ t : Fin cfg0.N, win0_12.index t (0 : Fin 2) = t.val ∧ win0_12.index t (1 : Fin 2) = 0 :=
  (by decide +kernel : ∀ t : Fin grid0.N, _)

/-- Every block row index 0..24 is some point's. -/
theorem idx_onto : ∀ r : Fin 25, ∃ t : Fin cfg0.N, win0_12.index t = ![r.val, 0] :=
  (by decide +kernel : ∀ r : Fin 25, ∃ t : Fin grid0.N, win0_12.index t = ![r.val, 0])

/-! ## Each window's block at a point, read off its array -/

/-- Row `p` of window 0's block at point `t` is row `2000 t + p` of its array. -/
theorem blk0_apply (c : Dev nD) (t : Fin cfg0.N) (p : Fin 2000) (k : Fin 128) (n : Fin 50000)
    (hn : n.val = 2000 * t.val + p.val) :
    (iblk m c 0 t : Vec Ideal S2000x128 .f32) (ix2 p k) = (V m c main_arg0 : S50000x128.Idx → EReal) (ix2 n k) := by
  obtain ⟨e0, e1⟩ := idx0 t
  unfold iblk
  rw [View.read_apply]
  show (V m c main_arg0 : S50000x128.Idx → EReal) (((cfg0.win 0).blk t).view.emb (ix2 p k)) = (V m c main_arg0 : S50000x128.Idx → EReal) (ix2 n k)
  congr 1
  funext a
  apply Fin.ext
  match a with
  | ⟨0, _⟩ => show win0_0.index t (0 : Fin 2) * 2000 + 1 * p.val = n.val; omega
  | ⟨1, _⟩ => show win0_0.index t (1 : Fin 2) * 128 + 1 * k.val = k.val; omega

/-- Row `p` of window 1's block at point `t` is row `2000 t + p` of its array. -/
theorem blk1_apply (c : Dev nD) (t : Fin cfg0.N) (p : Fin 2000) (k : Fin 128) (n : Fin 50000)
    (hn : n.val = 2000 * t.val + p.val) :
    (iblk m c 1 t : Vec Ideal S2000x128 .f32) (ix2 p k) = (V m c main_v13 : S50000x128.Idx → EReal) (ix2 n k) := by
  obtain ⟨e0, e1⟩ := idx1 t
  unfold iblk
  rw [View.read_apply]
  show (V m c main_v13 : S50000x128.Idx → EReal) (((cfg0.win 1).blk t).view.emb (ix2 p k)) = (V m c main_v13 : S50000x128.Idx → EReal) (ix2 n k)
  congr 1
  funext a
  apply Fin.ext
  match a with
  | ⟨0, _⟩ => show win0_1.index t (0 : Fin 2) * 2000 + 1 * p.val = n.val; omega
  | ⟨1, _⟩ => show win0_1.index t (1 : Fin 2) * 128 + 1 * k.val = k.val; omega

/-- Row `p` of window 2's block at point `t` is row `2000 t + p` of its array. -/
theorem blk2_apply (c : Dev nD) (t : Fin cfg0.N) (p : Fin 2000) (k : Fin 2) (n : Fin 50000)
    (hn : n.val = 2000 * t.val + p.val) :
    (iblk m c 2 t : Vec Ideal S2000x2 .f32) (ix2 p k) = (V m c main_v19 : S50000x2.Idx → EReal) (ix2 n k) := by
  obtain ⟨e0, e1⟩ := idx2 t
  unfold iblk
  rw [View.read_apply]
  show (V m c main_v19 : S50000x2.Idx → EReal) (((cfg0.win 2).blk t).view.emb (ix2 p k)) = (V m c main_v19 : S50000x2.Idx → EReal) (ix2 n k)
  congr 1
  funext a
  apply Fin.ext
  match a with
  | ⟨0, _⟩ => show win0_2.index t (0 : Fin 2) * 2000 + 1 * p.val = n.val; omega
  | ⟨1, _⟩ => show win0_2.index t (1 : Fin 2) * 2 + 1 * k.val = k.val; omega

/-- Window 3's block at any point is its whole array. -/
theorem blk3_eq (c : Dev nD) (t : Fin cfg0.N) :
    (iblk m c 3 t : Vec Ideal S128x512 .bf16) = (V m c main_v21 : S128x512.Idx → EReal) := by
  obtain ⟨e0, e1⟩ := idx3 t
  unfold iblk
  funext y
  rw [View.read_apply]
  show (V m c main_v21 : S128x512.Idx → EReal) (((cfg0.win 3).blk t).view.emb y) = (V m c main_v21 : S128x512.Idx → EReal) y
  congr 1
  funext a
  apply Fin.ext
  match a with
  | ⟨0, _⟩ => show win0_3.index t (0 : Fin 2) * 128 + 1 * (y 0).val = (y 0).val; omega
  | ⟨1, _⟩ => show win0_3.index t (1 : Fin 2) * 512 + 1 * (y 1).val = (y 1).val; omega

/-- Window 4's block at any point is its whole array. -/
theorem blk4_eq (c : Dev nD) (t : Fin cfg0.N) :
    (iblk m c 4 t : Vec Ideal S128x512 .bf16) = (V m c main_v23 : S128x512.Idx → EReal) := by
  obtain ⟨e0, e1⟩ := idx4 t
  unfold iblk
  funext y
  rw [View.read_apply]
  show (V m c main_v23 : S128x512.Idx → EReal) (((cfg0.win 4).blk t).view.emb y) = (V m c main_v23 : S128x512.Idx → EReal) y
  congr 1
  funext a
  apply Fin.ext
  match a with
  | ⟨0, _⟩ => show win0_4.index t (0 : Fin 2) * 128 + 1 * (y 0).val = (y 0).val; omega
  | ⟨1, _⟩ => show win0_4.index t (1 : Fin 2) * 512 + 1 * (y 1).val = (y 1).val; omega

/-- Window 5's block at any point is its whole array. -/
theorem blk5_eq (c : Dev nD) (t : Fin cfg0.N) :
    (iblk m c 5 t : Vec Ideal S1x512 .bf16) = (V m c main_v25 : S1x512.Idx → EReal) := by
  obtain ⟨e0, e1⟩ := idx5 t
  unfold iblk
  funext y
  rw [View.read_apply]
  show (V m c main_v25 : S1x512.Idx → EReal) (((cfg0.win 5).blk t).view.emb y) = (V m c main_v25 : S1x512.Idx → EReal) y
  congr 1
  funext a
  apply Fin.ext
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- Window 6's block at any point is its whole array. -/
theorem blk6_eq (c : Dev nD) (t : Fin cfg0.N) :
    (iblk m c 6 t : Vec Ideal S1x512 .bf16) = (V m c main_v27 : S1x512.Idx → EReal) := by
  obtain ⟨e0, e1⟩ := idx6 t
  unfold iblk
  funext y
  rw [View.read_apply]
  show (V m c main_v27 : S1x512.Idx → EReal) (((cfg0.win 6).blk t).view.emb y) = (V m c main_v27 : S1x512.Idx → EReal) y
  congr 1
  funext a
  apply Fin.ext
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- Window 7's block at any point is its whole array. -/
theorem blk7_eq (c : Dev nD) (t : Fin cfg0.N) :
    (iblk m c 7 t : Vec Ideal S512 .f32) = (V m c main_arg2 : S512.Idx → EReal) := by
  have e0 := idx7 t
  unfold iblk
  funext y
  rw [View.read_apply]
  show (V m c main_arg2 : S512.Idx → EReal) (((cfg0.win 7).blk t).view.emb y) = (V m c main_arg2 : S512.Idx → EReal) y
  congr 1
  funext a
  apply Fin.ext
  match a with
  | ⟨0, _⟩ => show win0_7.index t (0 : Fin 1) * 512 + 1 * (y 0).val = (y 0).val; omega

/-- Window 8's block at any point is its whole array. -/
theorem blk8_eq (c : Dev nD) (t : Fin cfg0.N) :
    (iblk m c 8 t : Vec Ideal S512x128 .bf16) = (V m c main_v28 : S512x128.Idx → EReal) := by
  obtain ⟨e0, e1⟩ := idx8 t
  unfold iblk
  funext y
  rw [View.read_apply]
  show (V m c main_v28 : S512x128.Idx → EReal) (((cfg0.win 8).blk t).view.emb y) = (V m c main_v28 : S512x128.Idx → EReal) y
  congr 1
  funext a
  apply Fin.ext
  match a with
  | ⟨0, _⟩ => show win0_8.index t (0 : Fin 2) * 512 + 1 * (y 0).val = (y 0).val; omega
  | ⟨1, _⟩ => show win0_8.index t (1 : Fin 2) * 128 + 1 * (y 1).val = (y 1).val; omega

/-- Window 9's block at any point is its whole array. -/
theorem blk9_eq (c : Dev nD) (t : Fin cfg0.N) :
    (iblk m c 9 t : Vec Ideal S128 .f32) = (V m c main_arg4 : S128.Idx → EReal) := by
  have e0 := idx9 t
  unfold iblk
  funext y
  rw [View.read_apply]
  show (V m c main_arg4 : S128.Idx → EReal) (((cfg0.win 9).blk t).view.emb y) = (V m c main_arg4 : S128.Idx → EReal) y
  congr 1
  funext a
  apply Fin.ext
  match a with
  | ⟨0, _⟩ => show win0_9.index t (0 : Fin 1) * 128 + 1 * (y 0).val = (y 0).val; omega

/-- Window 10's block at any point is its whole array. -/
theorem blk10_eq (c : Dev nD) (t : Fin cfg0.N) :
    (iblk m c 10 t : Vec Ideal S128 .f32) = (V m c main_arg5 : S128.Idx → EReal) := by
  have e0 := idx10 t
  unfold iblk
  funext y
  rw [View.read_apply]
  show (V m c main_arg5 : S128.Idx → EReal) (((cfg0.win 10).blk t).view.emb y) = (V m c main_arg5 : S128.Idx → EReal) y
  congr 1
  funext a
  apply Fin.ext
  match a with
  | ⟨0, _⟩ => show win0_10.index t (0 : Fin 1) * 128 + 1 * (y 0).val = (y 0).val; omega

/-- Window 11's block at any point is its whole array. -/
theorem blk11_eq (c : Dev nD) (t : Fin cfg0.N) :
    (iblk m c 11 t : Vec Ideal S128 .f32) = (V m c main_arg6 : S128.Idx → EReal) := by
  have e0 := idx11 t
  unfold iblk
  funext y
  rw [View.read_apply]
  show (V m c main_arg6 : S128.Idx → EReal) (((cfg0.win 11).blk t).view.emb y) = (V m c main_arg6 : S128.Idx → EReal) y
  congr 1
  funext a
  apply Fin.ext
  match a with
  | ⟨0, _⟩ => show win0_11.index t (0 : Fin 1) * 128 + 1 * (y 0).val = (y 0).val; omega

/-! ## What a point writes back, the cover, the array after the run -/

/-- The kernel's output array as one function of the launch contents: the whole-array row function (first
    arrangement) of the node features, the two scatter sums of the host prefix, the degrees and the weights. -/
def G (c : Dev nD) : S50000x128.Idx → EReal :=
  Cert.Spec.arrK (m ((c : Thread nD τ).loc main_arg0))
    (Cert.KernelIdeal.KPrefix.aggRaw (F := Ideal) (m ((c : Thread nD τ).loc main_arg0)) (m ((c : Thread nD τ).loc main_arg7)))
    (m ((c : Thread nD τ).loc main_arg9))
    (Cert.KernelIdeal.KPrefix.distSum (F := Ideal) (m ((c : Thread nD τ).loc main_arg8)) (m ((c : Thread nD τ).loc main_arg7)))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- What point `t` writes back is the body's result on the twelve blocks at `t`: the one store through the whole
    block leaves its payload, and each load through a whole block reads the block. -/
theorem flushed_pay (c : Dev nD) (t : Fin cfg0.N) :
    (dats m 0 c).flushed 12 t = (cfg0.win 12).cut (grid0.coords t)
      (k0_pay1 (iblk m c 0 t)
      (k0_pay2 (iblk m c 0 t) (iblk m c 1 t) (iblk m c 2 t) (iblk m c 3 t) (iblk m c 4 t) (iblk m c 5 t) (iblk m c 6 t) (iblk m c 7 t))
      (k0_pay3 (F := Ideal)) (iblk m c 8 t) (iblk m c 9 t) (iblk m c 10 t) (iblk m c 11 t)) := by
  rw [Cert.KernelIdeal.Value.flushed12]
  unfold Gen.out0_12
  rw [View.canon_unit_zero hz2]
  simp only [View.ld_unit_zero (S := S2000x128) hz2, View.ld_unit_zero (S := S2000x2) hz2,
    View.ld_unit_zero (S := S128x512) hz2, View.ld_unit_zero (S := S1x512) hz2, View.ld_unit_zero (S := S512) hz1,
    View.ld_unit_zero (S := S512x128) hz2, View.ld_unit_zero (S := S128) hz1]

/-- Entry `(p, q)` of the body's result on the blocks at point `t` is `G` at row `n = 2000 t + p`. -/
theorem pay_entry (c : Dev nD) (t : Fin cfg0.N) (p : Fin 2000) (q : Fin 128) (n : Fin 50000)
    (hn : n.val = 2000 * t.val + p.val) :
    (k0_pay1 (iblk m c 0 t)
      (k0_pay2 (iblk m c 0 t) (iblk m c 1 t) (iblk m c 2 t) (iblk m c 3 t) (iblk m c 4 t) (iblk m c 5 t) (iblk m c 6 t) (iblk m c 7 t))
      (k0_pay3 (F := Ideal)) (iblk m c 8 t) (iblk m c 9 t) (iblk m c 10 t) (iblk m c 11 t) : FVec Ideal S2000x128 .f32) (ix2 p q) = G m c (ix2 n q) := by
  refine point_entry (m ((c : Thread nD τ).loc main_arg0))
    (Cert.KernelIdeal.KPrefix.aggRaw (F := Ideal) (m ((c : Thread nD τ).loc main_arg0)) (m ((c : Thread nD τ).loc main_arg7)))
    (m ((c : Thread nD τ).loc main_arg9))
    (Cert.KernelIdeal.KPrefix.distSum (F := Ideal) (m ((c : Thread nD τ).loc main_arg8)) (m ((c : Thread nD τ).loc main_arg7)))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)
    n p ?_ ?_ ?_ ?_ ?_ ?_ ?_ ?_ ?_ ?_ ?_ ?_ ?_ q
  · intro k; rw [blk0_apply m c t p k n hn, V_main_arg0]
  · intro k; rw [blk1_apply m c t p k n hn, Cert.KernelIdeal.KPrefix.V13]
  · rw [blk2_apply m c t p (0 : Fin 2) n hn, Cert.KernelIdeal.KPrefix.V19_0]
  · rw [blk2_apply m c t p (1 : Fin 2) n hn, Cert.KernelIdeal.KPrefix.V19_1]
  · intro k j; rw [blk3_eq m c t, Cert.KernelIdeal.KPrefix.V21]
  · intro k j; rw [blk4_eq m c t, Cert.KernelIdeal.KPrefix.V23]
  · intro j; rw [blk5_eq m c t, Cert.KernelIdeal.KPrefix.V25]
  · intro j; rw [blk6_eq m c t, Cert.KernelIdeal.KPrefix.V27]
  · intro j; rw [blk7_eq m c t, V_main_arg2]
  · intro j d; rw [blk8_eq m c t, Cert.KernelIdeal.KPrefix.V28]
  · intro d; rw [blk9_eq m c t, V_main_arg4]
  · intro d; rw [blk10_eq m c t, V_main_arg5]
  · intro d; rw [blk11_eq m c t, V_main_arg6]

/-- Entry `(p, q)` of the output's block at point `t` is entry `(2000 t + p, q)` of the array. -/
theorem emb12 (t : Fin cfg0.N) (p : Fin 2000) (q : Fin 128) (n : Fin 50000) (hn : n.val = 2000 * t.val + p.val) :
    ((cfg0.win 12).blk t).view.emb (ix2 p q) = (ix2 n q : S50000x128.Idx) := by
  obtain ⟨e0, e1⟩ := idx12 t
  funext a
  apply Fin.ext
  match a with
  | ⟨0, _⟩ => show win0_12.index t (0 : Fin 2) * 2000 + 1 * p.val = n.val; omega
  | ⟨1, _⟩ => show win0_12.index t (1 : Fin 2) * 128 + 1 * q.val = q.val; omega

/-- Point `t` writes back block `t` of `G`: rows `2000 t … 2000 t + 1999`. -/
theorem flushed_eq (c : Dev nD) (t : Fin cfg0.N) :
    (dats m 0 c).flushed 12 t = ((cfg0.win 12).blk t).view.read (Elt Ideal) (G m c) := by
  rw [flushed_pay]
  have ht : t.val < 25 := lt_of_lt_of_eq t.isLt N_0
  refine funext fun (j : S2000x128.Idx) => ?_
  obtain ⟨p, q, rfl⟩ : ∃ (p : Fin 2000) (q : Fin 128), j = ix2 p q := ⟨j 0, j 1, eq_ix2 j⟩
  have hp : p.val < 2000 := p.isLt
  rw [View.read_apply, emb12 t p q ⟨2000 * t.val + p.val, by omega⟩ rfl]
  exact pay_entry m c t p q ⟨2000 * t.val + p.val, by omega⟩ rfl

/-- An index of the output array is in point `t`'s block iff each coordinate is in the block's range on its axis. -/
theorem mem_blk (t : Fin cfg0.N) (i : S50000x128.Idx) :
    i ∈ ((cfg0.win 12).blk t).view.set ↔ ∀ a : Fin 2, win0_12.index t a * S2000x128.size a ≤ (i a).val
      ∧ (i a).val < win0_12.index t a * S2000x128.size a + S2000x128.size a := by
  show i ∈ ((View.whole main_v29).slice (win0_12.rect t)).set ↔ _
  rw [View.set_slice_whole, Rect.mem_set_unit]
  exact Iff.rfl

/-- Row `r` of the output array lies in the block of point `r / 2000`: the 25 blocks cover the array. -/
theorem covered (i : S50000x128.Idx) :
    ∃ t : Fin cfg0.N, (cfg0.win 12).flush t = true ∧ i ∈ ((cfg0.win 12).blk t).view.set := by
  have hi0 : (i 0).val < 50000 := (i 0).isLt
  have hi1 : (i 1).val < 128 := (i 1).isLt
  obtain ⟨t, ht⟩ := idx_onto ⟨(i 0).val / 2000, by omega⟩
  have q0 : win0_12.index t (0 : Fin 2) = (i 0).val / 2000 := congrFun ht 0
  have q1 : win0_12.index t (1 : Fin 2) = 0 := congrFun ht 1
  refine ⟨t, flush0_12 t, ?_⟩
  rw [mem_blk]
  intro a
  match a with
  | ⟨0, _⟩ =>
    show win0_12.index t (0 : Fin 2) * 2000 ≤ (i 0).val ∧ (i 0).val < win0_12.index t (0 : Fin 2) * 2000 + 2000
    omega
  | ⟨1, _⟩ =>
    show win0_12.index t (1 : Fin 2) * 128 ≤ (i 1).val ∧ (i 1).val < win0_12.index t (1 : Fin 2) * 128 + 128
    omega

/-- The output array after the run is `G` of the launch contents. -/
theorem final (c : Dev nD) : (dats m 0 c).arrAt 12 cfg0.N = G m c :=
  (dats m 0 c).arrAt_eq_of_cover 12 (G m c) (fun t _ => flushed_eq m c t) covered

/-- The run, read: the output array at `G`, the ten arguments unchanged. -/
theorem run : θ_run defs (onTc (τ := τ) (main (F := Ideal))) ⟨m, fun _ => 0, ρ⟩ fun r => ∀ c : Dev nD,
      r.2.mem ((c : Thread nD τ).loc main_v29) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.Value.run_blocks m ρ)

end Cert.KernelIdeal.KFinal

end
-- ==== Proof.RefRun.lean ====
/-
  The reference program's @main as one straight line of host operations, the three called functions'
  bodies written at their call sites over the calls' buffer records, and its run read back: every weakly
  fair execution terminates with each buffer at the fold of the operations' results over the launch contents.
-/
import proofs.«106757_j32676111188087_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- @main's 87 operations in order: its own sixty-one, @relu's three at the first call, and at the second call
    @_var's twenty followed by @_where's three. -/
abbrev ops : List (HloOp τ sig (Elt F)) :=
  [ StableHlo.unary main_arg7 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg7 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_c (constantI S_ 32 0#32),
    StableHlo.unary main_c main_v4 (broadcastInDim S640000 ![] bcast_S_S640000 : (⟨S_, .i32⟩ : BufTy).Contents (Elt F) → (⟨S640000, .i32⟩ : BufTy).Contents (Elt F)),
    StableHlo.binary main_v3 main_v4 main_v5 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 50000#32),
    StableHlo.unary main_c_0 main_v6 (broadcastInDim S640000 ![] bcast_S_S640000 : (⟨S_, .i32⟩ : BufTy).Contents (Elt F) → (⟨S640000, .i32⟩ : BufTy).Contents (Elt F)),
    StableHlo.binary main_v3 main_v6 main_v7 (addi : (⟨S640000, .i32⟩ : BufTy).Contents (Elt F) → (⟨S640000, .i32⟩ : BufTy).Contents (Elt F) → (⟨S640000, .i32⟩ : BufTy).Contents (Elt F)),
    StableHlo.ternary main_v5 main_v7 main_v3 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v8 main_v9 (broadcastInDim S640000x1 ![0] bcast_S640000_S640000x1_0 : (⟨S640000, .i32⟩ : BufTy).Contents (Elt F) → (⟨S640000x1, .i32⟩ : BufTy).Contents (Elt F)),
    StableHlo.binary main_arg0 main_v9 main_v10 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v1 main_v12 (broadcastInDim S640000x1 ![0] bcast_S640000_S640000x1_0 : (⟨S640000, .i32⟩ : BufTy).Contents (Elt F) → (⟨S640000x1, .i32⟩ : BufTy).Contents (Elt F)),
    StableHlo.ternary main_v11 main_v12 main_v10 main_v13 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S50000 ![] bcast_S_S50000 : (⟨S_, .f32⟩ : BufTy).Contents (Elt F) → (⟨S50000, .f32⟩ : BufTy).Contents (Elt F)),
    StableHlo.binary main_arg9 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (broadcastInDim S50000x1 ![0] bcast_S50000_S50000x1_0 : (⟨S50000, .f32⟩ : BufTy).Contents (Elt F) → (⟨S50000x1, .f32⟩ : BufTy).Contents (Elt F)),
    StableHlo.unary main_v16 main_v17 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v17 main_v18 (Host.divf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x00000000#32),
    StableHlo.unary main_cst_2 main_v19 (broadcastInDim S50000 ![] bcast_S_S50000 : (⟨S_, .f32⟩ : BufTy).Contents (Elt F) → (⟨S50000, .f32⟩ : BufTy).Contents (Elt F)),
    StableHlo.unary main_v1 main_v20 (broadcastInDim S640000x1 ![0] bcast_S640000_S640000x1_0 : (⟨S640000, .i32⟩ : BufTy).Contents (Elt F) → (⟨S640000x1, .i32⟩ : BufTy).Contents (Elt F)),
    StableHlo.ternary main_v19 main_v20 main_arg8 main_v21 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    StableHlo.binary main_v21 main_v15 main_v22 (Host.divf : (⟨S50000, .f32⟩ : BufTy).Contents (Elt F) → (⟨S50000, .f32⟩ : BufTy).Contents (Elt F) → (⟨S50000, .f32⟩ : BufTy).Contents (Elt F)),
    StableHlo.unary main_arg9 main_v23 (broadcastInDim S50000x1 ![0] bcast_S50000_S50000x1_0 : (⟨S50000, .f32⟩ : BufTy).Contents (Elt F) → (⟨S50000x1, .f32⟩ : BufTy).Contents (Elt F)),
    StableHlo.unary main_v22 main_v24 (broadcastInDim S50000x1 ![0] bcast_S50000_S50000x1_0 : (⟨S50000, .f32⟩ : BufTy).Contents (Elt F) → (⟨S50000x1, .f32⟩ : BufTy).Contents (Elt F)),
    StableHlo.nary ![main_arg0, main_v18, main_v23, main_v24] main_v25 (fun u => concatenate S50000x258 1 [⟨S50000x128, u 0⟩, ⟨S50000x128, u 1⟩, ⟨S50000x1, u 2⟩, ⟨S50000x1, u 3⟩] concatenates_S50000x128_S50000x128_S50000x1_S50000x1_S50000x258_d1),
    StableHlo.binary main_v25 main_arg1 main_v26 ((fun l r => Host.dotGeneral dot_S50000x258_S258x512_S50000x512_1_0_0_1_n_n none l r) : (⟨S50000x258, .f32⟩ : BufTy).Contents (Elt F) → (⟨S258x512, .f32⟩ : BufTy).Contents (Elt F) → (⟨S50000x512, .f32⟩ : BufTy).Contents (Elt F)),
    StableHlo.unary main_arg2 main_v27 (broadcastInDim S1x512 ![1] bcast_S512_S1x512_1 : (⟨S512, .f32⟩ : BufTy).Contents (Elt F) → (⟨S1x512, .f32⟩ : BufTy).Contents (Elt F)),
    StableHlo.unary main_v27 main_v28 (broadcastInDim S50000x512 ![0, 1] bcast_S1x512_S50000x512_0_1 : (⟨S1x512, .f32⟩ : BufTy).Contents (Elt F) → (⟨S50000x512, .f32⟩ : BufTy).Contents (Elt F)),
    StableHlo.binary main_v26 main_v28 main_v29 (addf : (⟨S50000x512, .f32⟩ : BufTy).Contents (Elt F) → (⟨S50000x512, .f32⟩ : BufTy).Contents (Elt F) → (⟨S50000x512, .f32⟩ : BufTy).Contents (Elt F)),
    StableHlo.TRef.nullary main_call0.cst (constant S_ .f32 0x00000000#32),
    StableHlo.TRef.unary main_call0.cst main_call0.v0 (broadcastInDim S50000x512 ![] bcast_S_S50000x512),
    StableHlo.TRef.binary (.of main_v29 : TRef sig ⟨S50000x512, .f32⟩) main_call0.v0 main_call0.v1 maximumf,
    StableHlo.binary main_v30 main_arg3 main_v31 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v33 main_v34 (addf : (⟨S50000x128, .f32⟩ : BufTy).Contents (Elt F) → (⟨S50000x128, .f32⟩ : BufTy).Contents (Elt F) → (⟨S50000x128, .f32⟩ : BufTy).Contents (Elt F)),
    StableHlo.binary main_arg0 main_v34 main_v35 (addf : (⟨S50000x128, .f32⟩ : BufTy).Contents (Elt F) → (⟨S50000x128, .f32⟩ : BufTy).Contents (Elt F) → (⟨S50000x128, .f32⟩ : BufTy).Contents (Elt F)),
    StableHlo.nullary main_cst_3 (constant S_ .f32 0x00000000#32),
    StableHlo.binary main_v35 main_cst_3 main_v36 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v36 main_v37 (broadcastInDim S50000x1 ![0] bcast_S50000_S50000x1_0 : (⟨S50000, .f32⟩ : BufTy).Contents (Elt F) → (⟨S50000x1, .f32⟩ : BufTy).Contents (Elt F)),
    StableHlo.nullary main_cst_4 (constant S_ .f32 0x43000000#32),
    StableHlo.unary main_cst_4 main_v38 (broadcastInDim S50000x1 ![] bcast_S_S50000x1 : (⟨S_, .f32⟩ : BufTy).Contents (Elt F) → (⟨S50000x1, .f32⟩ : BufTy).Contents (Elt F)),
    StableHlo.binary main_v37 main_v38 main_v39 (Host.divf : (⟨S50000x1, .f32⟩ : BufTy).Contents (Elt F) → (⟨S50000x1, .f32⟩ : BufTy).Contents (Elt F) → (⟨S50000x1, .f32⟩ : BufTy).Contents (Elt F)),
    StableHlo.nullary main_c_5 (constantI S_ 32 0#32),
    StableHlo.TRef.nullary main_call1.cst (constant S_ .f32 0x00000000#32),
    StableHlo.TRef.binary (.of main_v35 : TRef sig ⟨S50000x128, .f32⟩) main_call1.cst main_call1.v0 (fun x v => Host.reduceAdd x v reducesTo_S50000x128_S50000_d1 h_S_),
    StableHlo.TRef.unary main_call1.v0 main_call1.v1 (broadcastInDim S50000x1 ![0] bcast_S50000_S50000x1_0),
    StableHlo.TRef.nullary main_call1.cst_0 (constant S_ .f32 0x43000000#32),
    StableHlo.TRef.unary main_call1.cst_0 main_call1.v2 (broadcastInDim S50000x1 ![] bcast_S_S50000x1),
    StableHlo.TRef.binary main_call1.v1 main_call1.v2 main_call1.v3 Host.divf,
    StableHlo.TRef.unary main_call1.v3 main_call1.v4 (broadcastInDim S50000x128 ![0, 1] bcast_S50000x1_S50000x128_0_1),
    StableHlo.TRef.binary (.of main_v35 : TRef sig ⟨S50000x128, .f32⟩) main_call1.v4 main_call1.v5 subf,
    StableHlo.TRef.binary main_call1.v5 main_call1.v5 main_call1.v6 mulf,
    StableHlo.TRef.unary (.of main_c_5 : TRef sig ⟨S_, .i32⟩) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S50000_d1 h_S_),
    StableHlo.TRef.unary main_call1.v9 main_call1.v10 (broadcastInDim S50000x1 ![0] bcast_S50000_S50000x1_0),
    StableHlo.TRef.unary main_call1.v8 main_call1.v11 (broadcastInDim S50000x1 ![] bcast_S_S50000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S50000x1 ![] bcast_S_S50000x1),
    StableHlo.TRef.ternary main_call1.v13 main_call1.v12 main_call1.call0.v1 main_call1.call0.v2 (fun p a b => select (broadcastInDim S50000x1 ![] bcast_S_S50000x1 p) a b),
    StableHlo.unary main_v39 main_v41 (broadcastInDim S50000x128 ![0, 1] bcast_S50000x1_S50000x128_0_1 : (⟨S50000x1, .f32⟩ : BufTy).Contents (Elt F) → (⟨S50000x128, .f32⟩ : BufTy).Contents (Elt F)),
    StableHlo.binary main_v35 main_v41 main_v42 (subf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3727C5AC#32),
    StableHlo.unary main_cst_6 main_v43 (broadcastInDim S50000x1 ![] bcast_S_S50000x1 : (⟨S_, .f32⟩ : BufTy).Contents (Elt F) → (⟨S50000x1, .f32⟩ : BufTy).Contents (Elt F)),
    StableHlo.binary main_v40 main_v43 main_v44 (addf : (⟨S50000x1, .f32⟩ : BufTy).Contents (Elt F) → (⟨S50000x1, .f32⟩ : BufTy).Contents (Elt F) → (⟨S50000x1, .f32⟩ : BufTy).Contents (Elt F)),
    StableHlo.unary main_v44 main_v45 (Host.sqrt : (⟨S50000x1, .f32⟩ : BufTy).Contents (Elt F) → (⟨S50000x1, .f32⟩ : BufTy).Contents (Elt F)),
    StableHlo.unary main_v45 main_v46 (broadcastInDim S50000x128 ![0, 1] bcast_S50000x1_S50000x128_0_1 : (⟨S50000x1, .f32⟩ : BufTy).Contents (Elt F) → (⟨S50000x128, .f32⟩ : BufTy).Contents (Elt F)),
    StableHlo.binary main_v42 main_v46 main_v47 (Host.divf : (⟨S50000x128, .f32⟩ : BufTy).Contents (Elt F) → (⟨S50000x128, .f32⟩ : BufTy).Contents (Elt F) → (⟨S50000x128, .f32⟩ : BufTy).Contents (Elt F)),
    StableHlo.unary main_arg5 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v49 main_v50 (mulf : (⟨S50000x128, .f32⟩ : BufTy).Contents (Elt F) → (⟨S50000x128, .f32⟩ : BufTy).Contents (Elt F) → (⟨S50000x128, .f32⟩ : BufTy).Contents (Elt F)),
    StableHlo.unary main_arg6 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v52 main_v53 (addf : (⟨S50000x128, .f32⟩ : BufTy).Contents (Elt F) → (⟨S50000x128, .f32⟩ : BufTy).Contents (Elt F) → (⟨S50000x128, .f32⟩ : BufTy).Contents (Elt F)) ]

-- eighty-seven binds re-associated: the rewrite under the chain recurses once per statement
set_option maxRecDepth 4096 in
set_option maxHeartbeats 4000000 in
/-- @main is that straight line: the windows and the functions' definitions unfolded at their calls, both sides
    are one chain of steps once sequencing is re-associated. -/
theorem main_eq (c : Dev nD) : main (F := F) c = seq ops := by
  simp only [main, main_part0, main_part1, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- On every device, for any float values, from any memory with zero counters: every weakly fair execution of
    @main terminates, and every final state has each buffer at the fold of the operations over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference program's result as ONE term of its argument arrays, cut into named stages. Each stage is
  the composition of the host operations of @main (the called functions' bodies written at their call sites)
  that produce one intermediate array:
    src / dst      the edge sources as an index column; the edge targets, a negative one wrapped by +50000, as a column
    aggRaw         the rows of x gathered at the targets and summed into the sources, from zero
    distSum        the edge distances summed into the sources, from zero
    deg            max(degrees, 1);   aggN = aggRaw / deg (per row);   meanDist = distSum / deg
    feat           the 258 columns [ x | aggN | degrees | meanDist ]
    hid            max(feat . W1 + b1, 0)
    y              x + (hid . W2 + b2)
    rowMean        the row sums of y over 128, as a column
    var            the row sums of (y - rowMean)^2 over (128 - 0), kept where 128 - 0 > 0
    norm           (y - rowMean) / sqrt(var + eps) * g + be
-/
import proofs.«106757_j32676111188087_2_alg».proof.ReferenceIdeal

noncomputable section

namespace Cert.ReferenceIdeal.RefTerm

open Cert.ReferenceIdeal Idealize.ShloMosaic
open Cert.ReferenceIdeal.Facts₀ Cert.ReferenceIdeal.Facts

variable {F : FTy → Type} [FloatOps F] [Cert.ReferenceIdeal.Facts]

/-- Contents of a float array / an index array of a shape. -/
abbrev FA (s : Shape) := (⟨s, .f32⟩ : BufTy).Contents (Elt F)
abbrev IA (s : Shape) := (⟨s, .i32⟩ : BufTy).Contents (Elt F)

def src (ei : IA (F := F) S2x640000) : IA (F := F) S640000x1 :=
  broadcastInDim S640000x1 ![0] bcast_S640000_S640000x1_0
    (shapeCast S640000 (extractStridedSlice S1x640000 ![0, 0] ei slices_S2x640000_S1x640000_0_0) shapeCasts_S1x640000_S640000)

def dstRaw (ei : IA (F := F) S2x640000) : IA (F := F) S640000 :=
  shapeCast S640000 (extractStridedSlice S1x640000 ![1, 0] ei slices_S2x640000_S1x640000_1_0) shapeCasts_S1x640000_S640000

def dst (ei : IA (F := F) S2x640000) : IA (F := F) S640000x1 :=
  broadcastInDim S640000x1 ![0] bcast_S640000_S640000x1_0
    (select (cmpi .slt (dstRaw (F := F) ei) (broadcastInDim S640000 ![] bcast_S_S640000 (constantI S_ 32 0#32)))
      (addi (dstRaw (F := F) ei) (broadcastInDim S640000 ![] bcast_S_S640000 (constantI S_ 32 50000#32)))
      (dstRaw (F := F) ei))

def aggRaw (x : FA (F := F) S50000x128) (ei : IA (F := F) S2x640000) : FA (F := F) S50000x128 :=
  Host.scatterAdd scatter_S50000x128_S640000x1_S640000x128_1_0_0_1
    (broadcastInDim S50000x128 ![] bcast_S_S50000x128 (constant S_ .f32 0x00000000#32))
    (src (F := F) ei)
    (Host.gather gather_S50000x128_S640000x1_S640000x128_1_0_n_n_0_1_1128 x (dst (F := F) ei))

def distSum (ed : FA (F := F) S640000) (ei : IA (F := F) S2x640000) : FA (F := F) S50000 :=
  Host.scatterAdd scatter_S50000_S640000x1_S640000_n_0_0_1
    (broadcastInDim S50000 ![] bcast_S_S50000 (constant S_ .f32 0x00000000#32))
    (src (F := F) ei) ed

def deg (dg : FA (F := F) S50000) : FA (F := F) S50000 :=
  maximumf dg (broadcastInDim S50000 ![] bcast_S_S50000 (constant S_ .f32 0x3F800000#32))

def aggN (A : FA (F := F) S50000x128) (dg : FA (F := F) S50000) : FA (F := F) S50000x128 :=
  Host.divf A (broadcastInDim S50000x128 ![0, 1] bcast_S50000x1_S50000x128_0_1
    (broadcastInDim S50000x1 ![0] bcast_S50000_S50000x1_0 (deg dg)))

def meanDist (Sm dg : FA (F := F) S50000) : FA (F := F) S50000 :=
  Host.divf Sm (deg dg)

def feat (x A : FA (F := F) S50000x128) (dg Sm : FA (F := F) S50000) : FA (F := F) S50000x258 :=
  concatenate S50000x258 1 [⟨S50000x128, x⟩, ⟨S50000x128, aggN A dg⟩,
      ⟨S50000x1, broadcastInDim S50000x1 ![0] bcast_S50000_S50000x1_0 dg⟩,
      ⟨S50000x1, broadcastInDim S50000x1 ![0] bcast_S50000_S50000x1_0 (meanDist Sm dg)⟩]
    concatenates_S50000x128_S50000x128_S50000x1_S50000x1_S50000x258_d1

def hid (ft : FA (F := F) S50000x258) (W1 : FA (F := F) S258x512) (b1 : FA (F := F) S512) : FA (F := F) S50000x512 :=
  maximumf
    (addf (Host.dotGeneral dot_S50000x258_S258x512_S50000x512_1_0_0_1_n_n none ft W1)
      (broadcastInDim S50000x512 ![0, 1] bcast_S1x512_S50000x512_0_1 (broadcastInDim S1x512 ![1] bcast_S512_S1x512_1 b1)))
    (broadcastInDim S50000x512 ![] bcast_S_S50000x512 (constant S_ .f32 0x00000000#32))

def y (x : FA (F := F) S50000x128) (h : FA (F := F) S50000x512) (W2 : FA (F := F) S512x128) (b2 : FA (F := F) S128) :
    FA (F := F) S50000x128 :=
  addf x (addf (Host.dotGeneral dot_S50000x512_S512x128_S50000x128_1_0_0_1_n_n none h W2)
    (broadcastInDim S50000x128 ![0, 1] bcast_S1x128_S50000x128_0_1 (broadcastInDim S1x128 ![1] bcast_S128_S1x128_1 b2)))

def rowMean (yy : FA (F := F) S50000x128) : FA (F := F) S50000x1 :=
  Host.divf
    (broadcastInDim S50000x1 ![0] bcast_S50000_S50000x1_0
      (Host.reduceAdd yy (constant S_ .f32 0x00000000#32) reducesTo_S50000x128_S50000_d1 h_S_))
    (broadcastInDim S50000x1 ![] bcast_S_S50000x1 (constant S_ .f32 0x43000000#32))

/-- The row's centred entries. -/
def cen (yy : FA (F := F) S50000x128) : FA (F := F) S50000x128 :=
  subf yy (broadcastInDim S50000x128 ![0, 1] bcast_S50000x1_S50000x128_0_1 (rowMean yy))

/-- The divisor of the variance: 128 minus the converted integer 0. -/
def cnt : FA (F := F) S_ :=
  subf (constant S_ .f32 0x43000000#32) (sitofp .f32 (constantI S_ 32 0#32))

def var (yy : FA (F := F) S50000x128) : FA (F := F) S50000x1 :=
  select (broadcastInDim S50000x1 ![] bcast_S_S50000x1 (cmpf .ogt (cnt (F := F)) (constant S_ .f32 0x00000000#32)))
    (Host.divf
      (broadcastInDim S50000x1 ![0] bcast_S50000_S50000x1_0
        (Host.reduceAdd (mulf (cen yy) (cen yy)) (constant S_ .f32 0x00000000#32) reducesTo_S50000x128_S50000_d1 h_S_))
      (broadcastInDim S50000x1 ![] bcast_S_S50000x1 (cnt (F := F))))
    (broadcastInDim S50000x1 ![] bcast_S_S50000x1 (id (constant S_ .f32 0x7FC00000#32)))

def norm (yy : FA (F := F) S50000x128) (g be : FA (F := F) S128) : FA (F := F) S50000x128 :=
  addf
    (mulf
      (Host.divf (cen yy)
        (broadcastInDim S50000x128 ![0, 1] bcast_S50000x1_S50000x128_0_1
          (Host.sqrt (addf (var yy) (broadcastInDim S50000x1 ![] bcast_S_S50000x1 (constant S_ .f32 0x3727C5AC#32))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 be))

/-- The reference's result of its ten arguments, in @main's order. -/
def out (x : FA (F := F) S50000x128) (W1 : FA (F := F) S258x512) (b1 : FA (F := F) S512) (W2 : FA (F := F) S512x128)
    (b2 g be : FA (F := F) S128) (ei : IA (F := F) S2x640000) (ed : FA (F := F) S640000) (dg : FA (F := F) S50000) :
    FA (F := F) S50000x128 :=
  norm (y x (hid (feat x (aggRaw x ei) dg (distSum ed ei)) W1 b1) W2 b2) g be

end Cert.ReferenceIdeal.RefTerm

end
-- ==== Proof.RefBack.lean ====
/-
  The reference program's run read back at its result: the fold of @main's operations at the result buffer is
  the one term `RefTerm.out` of the ten argument arrays, and every argument keeps its launch contents.
-/
import proofs.«106757_j32676111188087_2_alg».proof.Proof.RefRun
import proofs.«106757_j32676111188087_2_alg».proof.Proof.RefTerm
import Idealize.ShloMosaic.PureOps.Ideal

noncomputable section

namespace Cert.ReferenceIdeal.RefBack

open Cert.ReferenceIdeal Cert.ReferenceIdeal.Facts₀ Idealize.ShloMosaic Idealize.ShloMosaic.TcCoe Idealize.SL.Sem Idealize.ShloMosaic.StableHlo
open Cert.ReferenceIdeal.RefRun

section Fold

variable {F : FTy → Type} [FloatOps F] [Cert.ReferenceIdeal.Facts]

/- The gather, the two scatter-sums, the row sums and the concatenation stay folded while the two sides are compared:
   their bodies are searches and sums over the operand's elements, and the equation never looks inside them. -/
attribute [local irreducible] Host.gather Host.scatterAdd Host.reduceAdd concatenate in
set_option maxRecDepth 16384 in
set_option maxHeartbeats 4000000 in
/-- The fold read at the result buffer. Each operation's result at its own buffer is its function of its operands'
    contents and at any other buffer what was there; composing the eighty-seven gives, stage by stage, the edge
    columns, the two neighbour sums, the 258 features, the hidden layer, the residual `y`, its row mean and
    variance, and the normalised rows: the term `RefTerm.out` of the ten arguments, by unfolding alone. -/
theorem out_eq (V : Valuation τ sig (Elt F)) :
    after (ops (F := F)) V (main_v53 : DevRef τ sig)
      = RefTerm.out (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

set_option maxRecDepth 16384 in
set_option maxHeartbeats 4000000 in
/-- No operation writes the buffer of argument 0 (`x`). -/
theorem arg0_eq (V : Valuation τ sig (Elt F)) :
    after (ops (F := F)) V (main_arg0 : DevRef τ sig) = V (main_arg0 : DevRef τ sig) := by
  after_results_simp

set_option maxRecDepth 16384 in
set_option maxHeartbeats 4000000 in
/-- No operation writes the buffer of argument 1 (`W1`). -/
theorem arg1_eq (V : Valuation τ sig (Elt F)) :
    after (ops (F := F)) V (main_arg1 : DevRef τ sig) = V (main_arg1 : DevRef τ sig) := by
  after_results_simp

set_option maxRecDepth 16384 in
set_option maxHeartbeats 4000000 in
/-- No operation writes the buffer of argument 2 (`b1`). -/
theorem arg2_eq (V : Valuation τ sig (Elt F)) :
    after (ops (F := F)) V (main_arg2 : DevRef τ sig) = V (main_arg2 : DevRef τ sig) := by
  after_results_simp

set_option maxRecDepth 16384 in
set_option maxHeartbeats 4000000 in
/-- No operation writes the buffer of argument 3 (`W2`). -/
theorem arg3_eq (V : Valuation τ sig (Elt F)) :
    after (ops (F := F)) V (main_arg3 : DevRef τ sig) = V (main_arg3 : DevRef τ sig) := by
  after_results_simp

set_option maxRecDepth 16384 in
set_option maxHeartbeats 4000000 in
/-- No operation writes the buffer of argument 4 (`b2`). -/
theorem arg4_eq (V : Valuation τ sig (Elt F)) :
    after (ops (F := F)) V (main_arg4 : DevRef τ sig) = V (main_arg4 : DevRef τ sig) := by
  after_results_simp

set_option maxRecDepth 16384 in
set_option maxHeartbeats 4000000 in
/-- No operation writes the buffer of argument 5 (`g`). -/
theorem arg5_eq (V : Valuation τ sig (Elt F)) :
    after (ops (F := F)) V (main_arg5 : DevRef τ sig) = V (main_arg5 : DevRef τ sig) := by
  after_results_simp

set_option maxRecDepth 16384 in
set_option maxHeartbeats 4000000 in
/-- No operation writes the buffer of argument 6 (`be`). -/
theorem arg6_eq (V : Valuation τ sig (Elt F)) :
    after (ops (F := F)) V (main_arg6 : DevRef τ sig) = V (main_arg6 : DevRef τ sig) := by
  after_results_simp

set_option maxRecDepth 16384 in
set_option maxHeartbeats 4000000 in
/-- No operation writes the buffer of argument 7 (`ei`). -/
theorem arg7_eq (V : Valuation τ sig (Elt F)) :
    after (ops (F := F)) V (main_arg7 : DevRef τ sig) = V (main_arg7 : DevRef τ sig) := by
  after_results_simp

set_option maxRecDepth 16384 in
set_option maxHeartbeats 4000000 in
/-- No operation writes the buffer of argument 8 (`ed`). -/
theorem arg8_eq (V : Valuation τ sig (Elt F)) :
    after (ops (F := F)) V (main_arg8 : DevRef τ sig) = V (main_arg8 : DevRef τ sig) := by
  after_results_simp

set_option maxRecDepth 16384 in
set_option maxHeartbeats 4000000 in
/-- No operation writes the buffer of argument 9 (`dg`). -/
theorem arg9_eq (V : Valuation τ sig (Elt F)) :
    after (ops (F := F)) V (main_arg9 : DevRef τ sig) = V (main_arg9 : DevRef τ sig) := by
  after_results_simp

end Fold

/-- On every device, on the extended reals, from any memory with zero counters: every weakly fair execution of @main
    terminates with the result buffer at `RefTerm.out` of the ten arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53)
          = RefTerm.out (F := Ideal) (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)) (m ((c.tc : Thread nD τ).loc main_arg6))
              (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v53).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_all m ρ)

end Cert.ReferenceIdeal.RefBack

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«106757_j32676111188087_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«106757_j32676111188087_2_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibSpread.lean ====
/-
  Spread and column forms of small arrays, read at an entry.

  * A scalar constant spread over any shape reads the constant's value (`splat_apply`).
  * A vector of length `M` made an `M × 1` column reads the vector (`col_apply`); spread further along `N` lanes it reads,
    at `(p, q)`, the vector at `p` (`colSpread_apply`).
  * An `M × 1` column, or a `1 × M` row, read back as a vector (`colVec_apply`, `rowVec_apply`).
  * Row 0 of a `2 × M` table of words, sliced off, read as a vector and made a column, is the column `srcCol` of the
    table's first row (`srcCol_eq`) — the index column of a scatter or gather keyed by an edge list's source row.
-/
import Idealize.ShloMosaic.Lib.ValueIdx
import Idealize.ShloMosaic.Lib.Pipeline.Value
import Idealize.ShloMosaic.PureOps.Ideal.Laws

noncomputable section

namespace Cert.Lib.Spread

open Idealize.ShloMosaic Idealize.ShloMosaic.ValueIdx

variable {α : Type} {M N : Nat}

/-- A scalar constant spread over any shape reads the constant's value. -/
theorem splat_apply {s : Shape} (h : (⟨0, ![]⟩ : Shape).BroadcastsInDim s (![] : Fin 0 → Fin s.rank))
    (w : BitVec 32) (i : s.Idx) :
    broadcastInDim s ![] h (constant (F := Ideal) ⟨0, ![]⟩ .f32 w) i = Ideal.ofBits .f32 w := by
  rw [broadcastInDim_apply _ h _ i (fun a => a.elim0) (fun a => a.elim0), constant_apply]

/-- A vector of length `M` made a column and spread along `N` lanes reads, at `(p, q)`, the vector at `p`. -/
theorem colSpread_apply (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![M, 1]⟩ ![0] h1 v) (ix2 p q) = v (ix1 p) := by
  refine (broadcastInDim_apply _ h2 _ (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine broadcastInDim_apply _ h1 v (ix2 p (0 : Fin 1)) (ix1 p) (fun a => ?_)
    match a with
    | ⟨0, _⟩ =>
      show p.val = if M = 1 then 0 else p.val
      split
      · have := p.isLt; omega
      · rfl

/-- A vector of length `M` made a column reads, at `(e, 0)`, the vector at `e`. -/
theorem col_apply (v : (⟨1, ![M]⟩ : Shape).Idx → α)
    (h1 : (⟨1, ![M]⟩ : Shape).BroadcastsInDim ⟨2, ![M, 1]⟩ (![0] : Fin 1 → Fin 2)) (e : Fin M) :
    broadcastInDim ⟨2, ![M, 1]⟩ ![0] h1 v (ix2 e (0 : Fin 1)) = v (ix1 e) := by
  refine broadcastInDim_apply _ h1 v (ix2 e (0 : Fin 1)) (ix1 e) (fun a => ?_)
  match a with
  | ⟨0, _⟩ =>
    show e.val = if M = 1 then 0 else e.val
    split
    · have := e.isLt; omega
    · rfl

/-- An `M × 1` column read back as a vector reads, at `p`, the column at `(p, 0)`. -/
theorem colVec_apply (v : (⟨2, ![M, 1]⟩ : Shape).Idx → α) (h : (⟨2, ![M, 1]⟩ : Shape).ShapeCasts ⟨1, ![M]⟩) (p : Fin M) :
    shapeCast ⟨1, ![M]⟩ v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-- A `1 × M` row read back as a vector reads, at `e`, the row at `(0, e)`. -/
theorem rowVec_apply (v : (⟨2, ![1, M]⟩ : Shape).Idx → α) (h : (⟨2, ![1, M]⟩ : Shape).ShapeCasts ⟨1, ![M]⟩) (e : Fin M) :
    shapeCast ⟨1, ![M]⟩ v h (ix1 e) = v (ix2 (0 : Fin 1) e) :=
  shapeCast_apply v h (ix1 e) (ix2 (0 : Fin 1) e) (by
    rw [Shape.rowMajor_val_one, Shape.rowMajor_val_two]
    show 0 * M + e.val = e.val
    omega)

/-- The column of source words: row 0 of the `2 × M` edge index, one word per edge. -/
def srcCol (EI : (⟨2, ![2, M]⟩ : Shape).Idx → BitVec 32) : (⟨2, ![M, 1]⟩ : Shape).Idx → BitVec 32 :=
  fun i => EI (ix2 (0 : Fin 2) ⟨(i 0).val, (i 0).isLt⟩)

/-- Slicing row 0 off the edge index, reading it as a vector and making that a column gives `srcCol`. -/
theorem srcCol_eq (EI : (⟨2, ![2, M]⟩ : Shape).Idx → BitVec 32)
    (hs : (⟨2, ![2, M]⟩ : Shape).Slices ![0, 0] ⟨2, ![1, M]⟩) (hc : (⟨2, ![1, M]⟩ : Shape).ShapeCasts ⟨1, ![M]⟩)
    (h1 : (⟨1, ![M]⟩ : Shape).BroadcastsInDim ⟨2, ![M, 1]⟩ (![0] : Fin 1 → Fin 2)) :
    broadcastInDim ⟨2, ![M, 1]⟩ ![0] h1 (shapeCast ⟨1, ![M]⟩ (extractStridedSlice ⟨2, ![1, M]⟩ ![0, 0] EI hs) hc)
      = srcCol EI := by
  funext i
  obtain ⟨e, z, rfl⟩ : ∃ (e : Fin M) (z : Fin 1), i = ix2 e z := ⟨i 0, i 1, eq_ix2 i⟩
  obtain rfl : z = 0 := Subsingleton.elim _ _
  rw [col_apply, rowVec_apply]
  exact extractStridedSlice_apply ![0, 0] EI hs (ix2 (0 : Fin 1) e) (ix2 (0 : Fin 2) e) (fun a => by
    match a with
    | ⟨0, _⟩ => rfl
    | ⟨1, _⟩ => show e.val = 0 + e.val; omega)

end Cert.Lib.Spread

end
-- ==== Proof.RefReadHid.lean ====
/-
  The feature, hidden-layer and residual stages of the reference's result, read at one entry, each over variable
  input arrays: the clamped degree, the neighbour sums and the distance sum divided by it, the 258 columns
  [ x | aggregate / degree | degree | distance / degree ] set side by side, the positive part of the first linear
  layer, and the input plus the second linear layer.
-/
import proofs.«106757_j32676111188087_2_alg».proof.Proof.RefTerm
import proofs.«106757_j32676111188087_2_alg».proof.Proof.Spec
import proofs.«106757_j32676111188087_2_alg».proof.Proof.LibDense
import proofs.«106757_j32676111188087_2_alg».proof.Proof.LibSpread

noncomputable section

open scoped BigOperators

namespace Cert.ReferenceIdeal.RefRead

open Cert.ReferenceIdeal Idealize.ShloMosaic Idealize.ShloMosaic.ValueIdx
open Cert.ReferenceIdeal.Facts₀ Cert.ReferenceIdeal.Facts

/-! ## Four arrays set side by side, read at an entry -/

section Four

variable {α : Type} {M a b c d N : Nat}
  (x₀ : (⟨2, ![M, a]⟩ : Shape).Idx → α) (x₁ : (⟨2, ![M, b]⟩ : Shape).Idx → α)
  (x₂ : (⟨2, ![M, c]⟩ : Shape).Idx → α) (x₃ : (⟨2, ![M, d]⟩ : Shape).Idx → α)
  (h : Shape.Concatenates [(⟨2, ![M, a]⟩ : Shape), ⟨2, ![M, b]⟩, ⟨2, ![M, c]⟩, ⟨2, ![M, d]⟩] ⟨2, ![M, N]⟩ 1)

/-- A column of the first piece. -/
theorem cols4_0 (p : Fin M) (q : Fin N) (q' : Fin a) (hq : q'.val = q.val) :
    concatenate ⟨2, ![M, N]⟩ 1 [⟨⟨2, ![M, a]⟩, x₀⟩, ⟨⟨2, ![M, b]⟩, x₁⟩, ⟨⟨2, ![M, c]⟩, x₂⟩, ⟨⟨2, ![M, d]⟩, x₃⟩] h (ix2 p q)
      = x₀ (ix2 p q') :=
  concatenate_apply_piece 1 [⟨⟨2, ![M, a]⟩, x₀⟩, ⟨⟨2, ![M, b]⟩, x₁⟩, ⟨⟨2, ![M, c]⟩, x₂⟩, ⟨⟨2, ![M, d]⟩, x₃⟩] h (ix2 p q) 0 (by simp) _ x₀ rfl rfl 0 rfl (ix2 p q') (fun e he => by
    match e, he with
    | ⟨0, _⟩, _ => rfl
    | ⟨1, _⟩, he => exact absurd rfl he) (by show 0 + q'.val = q.val; omega)

/-- A column of the second piece, counted from the first seam. -/
theorem cols4_1 (p : Fin M) (q : Fin N) (q' : Fin b) (hq : a + q'.val = q.val) :
    concatenate ⟨2, ![M, N]⟩ 1 [⟨⟨2, ![M, a]⟩, x₀⟩, ⟨⟨2, ![M, b]⟩, x₁⟩, ⟨⟨2, ![M, c]⟩, x₂⟩, ⟨⟨2, ![M, d]⟩, x₃⟩] h (ix2 p q)
      = x₁ (ix2 p q') :=
  concatenate_apply_piece 1 [⟨⟨2, ![M, a]⟩, x₀⟩, ⟨⟨2, ![M, b]⟩, x₁⟩, ⟨⟨2, ![M, c]⟩, x₂⟩, ⟨⟨2, ![M, d]⟩, x₃⟩] h (ix2 p q) 1 (by simp) _ x₁ rfl rfl a rfl (ix2 p q') (fun e he => by
    match e, he with
    | ⟨0, _⟩, _ => rfl
    | ⟨1, _⟩, he => exact absurd rfl he) hq

/-- A column of the third piece, counted from the second seam. -/
theorem cols4_2 (p : Fin M) (q : Fin N) (q' : Fin c) (hq : a + b + q'.val = q.val) :
    concatenate ⟨2, ![M, N]⟩ 1 [⟨⟨2, ![M, a]⟩, x₀⟩, ⟨⟨2, ![M, b]⟩, x₁⟩, ⟨⟨2, ![M, c]⟩, x₂⟩, ⟨⟨2, ![M, d]⟩, x₃⟩] h (ix2 p q)
      = x₂ (ix2 p q') :=
  concatenate_apply_piece 1 [⟨⟨2, ![M, a]⟩, x₀⟩, ⟨⟨2, ![M, b]⟩, x₁⟩, ⟨⟨2, ![M, c]⟩, x₂⟩, ⟨⟨2, ![M, d]⟩, x₃⟩] h (ix2 p q) 2 (by simp) _ x₂ rfl rfl (a + b) (by show a + (b + 0) = a + b; rfl) (ix2 p q')
    (fun e he => by
      match e, he with
      | ⟨0, _⟩, _ => rfl
      | ⟨1, _⟩, he => exact absurd rfl he) hq

/-- A column of the fourth piece, counted from the third seam. -/
theorem cols4_3 (p : Fin M) (q : Fin N) (q' : Fin d) (hq : a + b + c + q'.val = q.val) :
    concatenate ⟨2, ![M, N]⟩ 1 [⟨⟨2, ![M, a]⟩, x₀⟩, ⟨⟨2, ![M, b]⟩, x₁⟩, ⟨⟨2, ![M, c]⟩, x₂⟩, ⟨⟨2, ![M, d]⟩, x₃⟩] h (ix2 p q)
      = x₃ (ix2 p q') :=
  concatenate_apply_piece 1 [⟨⟨2, ![M, a]⟩, x₀⟩, ⟨⟨2, ![M, b]⟩, x₁⟩, ⟨⟨2, ![M, c]⟩, x₂⟩, ⟨⟨2, ![M, d]⟩, x₃⟩] h (ix2 p q) 3 (by simp) _ x₃ rfl rfl (a + b + c)
    (by show a + (b + (c + 0)) = a + b + c; omega) (ix2 p q')
    (fun e he => by
      match e, he with
      | ⟨0, _⟩, _ => rfl
      | ⟨1, _⟩, he => exact absurd rfl he) hq

end Four

/-- The host's quotient at an index is the quotient of the elements. -/
theorem hostDivf_apply' {s : Shape} {φ : FTy} (u v : FVec Ideal s φ) (i : s.Idx) :
    Host.divf u v i = Ideal.div (u i) (v i) := rfl

variable [Cert.ReferenceIdeal.Facts]

/-! ## The features -/

/-- The clamped degree of node `n`. -/
theorem deg_apply (dg : RefTerm.FA (F := Ideal) S50000) (n : Fin 50000) :
    RefTerm.deg dg (ix1 n) = max (dg (ix1 n)) Cert.Spec.wOne := by
  unfold RefTerm.deg
  rw [maximumf_apply, Cert.Lib.Spread.splat_apply]

/-- The neighbour sums over the clamped degree, at `(n, k)`. -/
theorem aggN_apply (A : RefTerm.FA (F := Ideal) S50000x128) (dg : RefTerm.FA (F := Ideal) S50000) (n : Fin 50000) (k : Fin 128) :
    RefTerm.aggN A dg (ix2 n k) = Ideal.div (A (ix2 n k)) (max (dg (ix1 n)) Cert.Spec.wOne) := by
  unfold RefTerm.aggN
  rw [hostDivf_apply', Cert.Lib.Spread.colSpread_apply, deg_apply]

/-- The distance sum over the clamped degree, at node `n`. -/
theorem meanDist_apply (Sm dg : RefTerm.FA (F := Ideal) S50000) (n : Fin 50000) :
    RefTerm.meanDist Sm dg (ix1 n) = Ideal.div (Sm (ix1 n)) (max (dg (ix1 n)) Cert.Spec.wOne) := by
  unfold RefTerm.meanDist
  rw [hostDivf_apply', deg_apply]

/-- The 258 feature columns at `(n, k)` are the row's features. -/
theorem feat_apply (x A : RefTerm.FA (F := Ideal) S50000x128) (dg Sm : RefTerm.FA (F := Ideal) S50000) (n : Fin 50000)
    (k : Fin 258) :
    RefTerm.feat x A dg Sm (ix2 n k)
      = Cert.Spec.feat (fun k => x (ix2 n k)) (fun k => A (ix2 n k)) (dg (ix1 n)) (Sm (ix1 n)) k := by
  unfold RefTerm.feat Cert.Spec.feat
  split
  · next h1 => exact cols4_0 _ _ _ _ _ n k ⟨k.val, h1⟩ rfl
  · next h1 =>
    split
    · next h2 =>
      rw [cols4_1 _ _ _ _ _ n k ⟨k.val - 128, by omega⟩ (by show 128 + (k.val - 128) = k.val; omega), aggN_apply]
    · next h2 =>
      split
      · next h3 =>
        rw [cols4_2 _ _ _ _ _ n k (0 : Fin 1) (by show 128 + 128 + 0 = k.val; omega), Cert.Lib.Spread.col_apply]
      · next h3 =>
        have := k.isLt
        rw [cols4_3 _ _ _ _ _ n k (0 : Fin 1) (by show 128 + 128 + 1 + 0 = k.val; omega), Cert.Lib.Spread.col_apply,
          meanDist_apply]

/-! ## The two linear layers -/

/-- The hidden layer at `(n, j)`: the positive part of row `n` of the features against column `j` of the weight,
    plus the bias. -/
theorem hid_apply (ft : RefTerm.FA (F := Ideal) S50000x258) (W1 : RefTerm.FA (F := Ideal) S258x512)
    (b1 : RefTerm.FA (F := Ideal) S512) (n : Fin 50000) (j : Fin 512) :
    RefTerm.hid ft W1 b1 (ix2 n j) = max ((∑ k : Fin 258, ft (ix2 n k) * W1 (ix2 k j)) + b1 (ix1 j)) 0 := by
  unfold RefTerm.hid
  rw [Cert.Lib.Dense.host_lin_relu dot_S50000x258_S258x512_S50000x512_1_0_0_1_n_n rfl]
  rfl

/-- The residual layer at `(n, c)`: the input plus row `n` of the hidden array against column `c` of the weight,
    plus the bias. -/
theorem y_apply (x : RefTerm.FA (F := Ideal) S50000x128) (hh : RefTerm.FA (F := Ideal) S50000x512)
    (W2 : RefTerm.FA (F := Ideal) S512x128) (b2 : RefTerm.FA (F := Ideal) S128) (n : Fin 50000) (c : Fin 128) :
    RefTerm.y x hh W2 b2 (ix2 n c) = x (ix2 n c) + ((∑ j : Fin 512, hh (ix2 n j) * W2 (ix2 j c)) + b2 (ix1 c)) := by
  unfold RefTerm.y
  rw [addf_apply, addf_apply, Cert.Lib.Dense.hostRow_apply, Cert.Lib.Dense.host_mm dot_S50000x512_S512x128_S50000x128_1_0_0_1_n_n rfl]
  rfl

/-- The three stages composed: row `n` of the residual array is the row's `outOf` of its one-contraction hidden
    pre-activation. -/
theorem y_hid_feat_apply (x A : RefTerm.FA (F := Ideal) S50000x128) (dg Sm : RefTerm.FA (F := Ideal) S50000)
    (W1 : RefTerm.FA (F := Ideal) S258x512) (b1 : RefTerm.FA (F := Ideal) S512)
    (W2 : RefTerm.FA (F := Ideal) S512x128) (b2 : RefTerm.FA (F := Ideal) S128) (n : Fin 50000) (c : Fin 128) :
    RefTerm.y x (RefTerm.hid (RefTerm.feat x A dg Sm) W1 b1) W2 b2 (ix2 n c)
      = Cert.Spec.outOf
          (Cert.Spec.hidR (fun k => x (ix2 n k)) (fun k => A (ix2 n k)) (dg (ix1 n)) (Sm (ix1 n))
            (fun k j => W1 (ix2 k j)) (fun j => b1 (ix1 j)))
          (fun j c => W2 (ix2 j c)) (fun c => b2 (ix1 c)) (fun k => x (ix2 n k)) c := by
  rw [y_apply]
  unfold Cert.Spec.outOf Cert.Spec.hidR
  simp only [hid_apply, feat_apply]

end Cert.ReferenceIdeal.RefRead

end
-- ==== Proof.LibHostRowSum.lean ====
/-
  The host's float sum along the rows of a matrix, read at a row, at the ideal values.

  For an `M × N` array `x` summed over its second axis from an initial value, entry `p` of the result is the initial
  value plus the sum of row `p`'s `N` entries.
-/
import Idealize.ShloMosaic.Lib.ValueIdx
import Idealize.ShloMosaic.PureOps.Ideal.Laws

noncomputable section

open scoped BigOperators

namespace Cert.Lib.HostRowSum

open Idealize.ShloMosaic Idealize.ShloMosaic.ValueIdx

variable {M N : Nat}

/-- Over row `p`, the index with `k` put on the summed axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The host's sum over the second axis of an `M × N` array, at row `p`: the initial value plus the row's sum. -/
theorem hostRowSum_apply {φ : FTy} {u : Shape} (x : FVec Ideal ⟨2, ![M, N]⟩ φ) (init : u.Idx → Ideal φ)
    (h' : (⟨2, ![M, N]⟩ : Shape).ReducesTo [1] ⟨1, ![M]⟩) (hu : 0 < u.numel)
    (h : (⟨2, ![M, N]⟩ : Shape).Reduces [1] ⟨1, ![M]⟩) (p : Fin M) :
    Host.reduceAdd x init h' hu (ix1 p) = init (Shape.Idx.first hu) + ∑ k : Fin N, x (ix2 p k) := by
  show Ideal.hostReduceAdd h' x (init (Shape.Idx.first hu)) (ix1 p) = _
  rw [Ideal.hostReduceAdd_single h' h]
  exact congrArg (init (Shape.Idx.first hu) + ·) (Finset.sum_congr rfl fun k _ => congrArg x (lift_row h p k))

end Cert.Lib.HostRowSum

end
-- ==== Proof.RefReadNorm.lean ====
/-
  The normalisation stages of the reference's result, read at one entry, each over a variable input array:
  the row mean (the row's sum over 128), the centred row, the variance (the row sum of the squared deviations
  over 128 - 0, kept because 128 - 0 > 0) and the normalised row: the centred entry divided by the square root
  of the variance plus eps, times the scale, plus the shift.
-/
import proofs.«106757_j32676111188087_2_alg».proof.Proof.RefTerm
import proofs.«106757_j32676111188087_2_alg».proof.Proof.Law
import proofs.«106757_j32676111188087_2_alg».proof.Proof.LibDense
import proofs.«106757_j32676111188087_2_alg».proof.Proof.LibHostRowSum
import proofs.«106757_j32676111188087_2_alg».proof.Proof.LibSpread

noncomputable section

open scoped BigOperators

namespace Cert.ReferenceIdeal.RefRead

open Cert.ReferenceIdeal Idealize.ShloMosaic Idealize.ShloMosaic.ValueIdx
open Cert.ReferenceIdeal.Facts₀ Cert.ReferenceIdeal.Facts

/-! ## Small readings shared by the stages -/

/-- The host's quotient at an index is the quotient of the elements. -/
theorem hostDivf_apply {s : Shape} {φ : FTy} (a b : FVec Ideal s φ) (i : s.Idx) :
    Host.divf a b i = Ideal.div (a i) (b i) := rfl

/-- The host's square root at an index is the square root of the element. -/
theorem hostSqrt_apply {s : Shape} {φ : FTy} (a : FVec Ideal s φ) (i : s.Idx) :
    Host.sqrt a i = Ideal.sqrt (a i) := rfl

/-- A scalar spread over any shape reads the scalar. -/
theorem scalarSpread_apply {α : Type} {s : Shape} (h : (⟨0, ![]⟩ : Shape).BroadcastsInDim s (![] : Fin 0 → Fin s.rank))
    (v : (⟨0, ![]⟩ : Shape).Idx → α) (i : s.Idx) : broadcastInDim s ![] h v i = v ix0 :=
  broadcastInDim_apply _ h v i ix0 (fun a => a.elim0)

/-- An `M × 1` column repeated along `N` lanes reads, at `(p, q)`, the column at `(p, 0)`. -/
theorem colLanes_apply {α : Type} {M N : Nat} (v : (⟨2, ![M, 1]⟩ : Shape).Idx → α)
    (h2 : (⟨2, ![M, 1]⟩ : Shape).BroadcastsInDim ⟨2, ![M, N]⟩ (![0, 1] : Fin 2 → Fin 2)) (p : Fin M) (q : Fin N) :
    broadcastInDim ⟨2, ![M, N]⟩ ![0, 1] h2 v (ix2 p q) = v (ix2 p (0 : Fin 1)) := by
  refine broadcastInDim_apply _ h2 _ (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

variable [Cert.ReferenceIdeal.Facts]

/-- The row sums from zero, made a column: at `(n, 0)` the sum of row `n`. -/
theorem rowSumCol_apply (z : FVec Ideal S50000x128 .f32) (n : Fin 50000) :
    broadcastInDim S50000x1 ![0] bcast_S50000_S50000x1_0
        (Host.reduceAdd z (constant (F := Ideal) S_ .f32 0x00000000#32) reducesTo_S50000x128_S50000_d1 h_S_) (ix2 n (0 : Fin 1))
      = ∑ c : Fin 128, z (ix2 n c) := by
  rw [Cert.Lib.Spread.col_apply, Cert.Lib.HostRowSum.hostRowSum_apply z _ _ _ (by decide) n, constant_apply,
    Ideal.ofBits_zero_f32, zero_add]

/-! ## The stages -/

/-- The row mean at `(n, 0)`: the sum of row `n` over the word of 128. -/
theorem rowMean_apply (yy : RefTerm.FA (F := Ideal) S50000x128) (n : Fin 50000) :
    RefTerm.rowMean yy (ix2 n (0 : Fin 1)) = Cert.Spec.mean (fun c => yy (ix2 n c)) := by
  unfold RefTerm.rowMean Cert.Spec.mean
  rw [hostDivf_apply, rowSumCol_apply, Cert.Lib.Spread.splat_apply]

/-- The centred row at `(n, c)`. -/
theorem cen_apply (yy : RefTerm.FA (F := Ideal) S50000x128) (n : Fin 50000) (c : Fin 128) :
    RefTerm.cen yy (ix2 n c) = yy (ix2 n c) - Cert.Spec.mean (fun c => yy (ix2 n c)) := by
  unfold RefTerm.cen
  rw [subf_apply, colLanes_apply, rowMean_apply]

/-- The divisor of the variance, as an extended real. -/
theorem cnt_apply : RefTerm.cnt (F := Ideal) ix0 = Cert.Spec.w128 - (((0#32 : BitVec 32).toInt : ℝ) : EReal) := rfl

/-- The variance at `(n, 0)`: the row sum of the squared deviations over the word of 128. -/
theorem var_apply (yy : RefTerm.FA (F := Ideal) S50000x128) (n : Fin 50000) :
    RefTerm.var yy (ix2 n (0 : Fin 1))
      = Ideal.div (∑ c : Fin 128, (yy (ix2 n c) - Cert.Spec.mean (fun c => yy (ix2 n c)))
          * (yy (ix2 n c) - Cert.Spec.mean (fun c => yy (ix2 n c)))) Cert.Spec.w128 := by
  unfold RefTerm.var
  rw [select_apply, scalarSpread_apply, cmpf_apply, cnt_apply, constant_apply]
  rw [show FloatOps.cmpf (F := Ideal) .ogt (Cert.Spec.w128 - (((0#32 : BitVec 32).toInt : ℝ) : EReal))
      (Ideal.ofBits .f32 0x00000000#32) = 1#1 from Cert.Spec.cnt_gt, select_one]
  rw [hostDivf_apply, rowSumCol_apply, scalarSpread_apply, cnt_apply, Cert.Spec.cnt_eq]
  refine congrArg (fun z => Ideal.div z Cert.Spec.w128) (Finset.sum_congr rfl fun c _ => ?_)
  rw [mulf_apply, cen_apply]

/-- The normalised row at `(n, c)`. -/
theorem norm_apply (yy : RefTerm.FA (F := Ideal) S50000x128) (g be : RefTerm.FA (F := Ideal) S128) (n : Fin 50000) (c : Fin 128) :
    RefTerm.norm yy g be (ix2 n c)
      = Cert.Spec.normR (fun c => yy (ix2 n c)) (fun c => g (ix1 c)) (fun c => be (ix1 c)) c := by
  unfold RefTerm.norm Cert.Spec.normR Cert.Spec.spread
  rw [addf_apply, mulf_apply, hostDivf_apply, cen_apply, colLanes_apply, hostSqrt_apply, addf_apply, var_apply,
    Cert.Lib.Spread.splat_apply, Cert.Lib.Dense.hostRow_apply, Cert.Lib.Dense.hostRow_apply]

end Cert.ReferenceIdeal.RefRead

end
-- ==== Proof.RefRead.lean ====
/-
  The reference program's whole-array result read entry by entry: the array the normalisation stage makes of the
  residual stage of the hidden layer of the features is, row by row, the row function `rowR` of the node's inputs
  (its features, its neighbour sums, its degree and its distance sum) and the shared weights. The two scatter sums
  (the neighbour sums and the distance sums) stay as they are: the result is a function of them.
-/
import proofs.«106757_j32676111188087_2_alg».proof.Proof.RefReadHid
import proofs.«106757_j32676111188087_2_alg».proof.Proof.RefReadNorm

noncomputable section

open scoped BigOperators

namespace Cert.ReferenceIdeal.RefRead

open Cert.ReferenceIdeal Idealize.ShloMosaic Idealize.ShloMosaic.ValueIdx

variable [Cert.ReferenceIdeal.Facts]

/-- Over ANY neighbour-sum array `A` and distance-sum array `Sm`: the normalised residual layer is the whole-array
    row function. -/
theorem norm_y_hid_feat_eq (x A : RefTerm.FA (F := Ideal) S50000x128) (dg Sm : RefTerm.FA (F := Ideal) S50000)
    (W1 : RefTerm.FA (F := Ideal) S258x512) (b1 : RefTerm.FA (F := Ideal) S512)
    (W2 : RefTerm.FA (F := Ideal) S512x128) (b2 g be : RefTerm.FA (F := Ideal) S128) :
    RefTerm.norm (RefTerm.y x (RefTerm.hid (RefTerm.feat x A dg Sm) W1 b1) W2 b2) g be
      = Cert.Spec.arrR x A dg Sm W1 b1 W2 b2 g be := by
  funext i
  obtain ⟨n, c, rfl⟩ : ∃ (n : Fin 50000) (c : Fin 128), i = ix2 n c := ⟨i 0, i 1, eq_ix2 i⟩
  rw [norm_apply]
  simp only [y_hid_feat_apply]
  rfl

/-- The reference's result is the whole-array row function of its arguments and its two scatter sums. -/
theorem out_eq (x : RefTerm.FA (F := Ideal) S50000x128) (W1 : RefTerm.FA (F := Ideal) S258x512)
    (b1 : RefTerm.FA (F := Ideal) S512) (W2 : RefTerm.FA (F := Ideal) S512x128) (b2 g be : RefTerm.FA (F := Ideal) S128)
    (ei : RefTerm.IA (F := Ideal) S2x640000) (ed : RefTerm.FA (F := Ideal) S640000) (dg : RefTerm.FA (F := Ideal) S50000) :
    RefTerm.out (F := Ideal) x W1 b1 W2 b2 g be ei ed dg
      = Cert.Spec.arrR x (RefTerm.aggRaw (F := Ideal) x ei) dg (RefTerm.distSum (F := Ideal) ed ei) W1 b1 W2 b2 g be :=
  norm_y_hid_feat_eq x (RefTerm.aggRaw (F := Ideal) x ei) dg (RefTerm.distSum (F := Ideal) ed ei) W1 b1 W2 b2 g be

end Cert.ReferenceIdeal.RefRead

end
-- ==== Proof.lean ====
/-
  The certificate of a residual graph layer: a Pallas kernel that does the dense part of the layer (degree
  normalisation, a two-layer perceptron, the residual and a row normalisation) on blocks of 2000 nodes, against
  a plain reference.

  Both programs first gather the neighbours' rows and sum them, and the edge distances, into the source nodes; the
  two programs apply the SAME host operations there, so that part is carried as one opaque pair of arrays
  (the neighbour sums and the distance sums) on both sides.

  The kernel's program then computes, for node n with features x, neighbour sum a, degree D and distance sum S,
      h = x·W1[0:128] + (a / max(D,1))·W1[128:256] + D·W1[256] + (S / max(D,1))·W1[257] + b1,
  the reference  h = [x | a / max(D,1) | D | S / max(D,1)]·W1 + b1  as one contraction over 258 positions: a regrouping of
  one finite sum, valid on all extended reals. Both continue with y = x + (max(h,0)·W2 + b2), the row mean m = Σy/128
  and v = Σ(y−m)²/128 + eps; the kernel ends with (y−m)·rsqrt(v)·g + be, the reference with (y−m)/sqrt(v)·g + be.
  Since a square is never negative on the extended reals and eps > 0, v is positive (possibly +∞), and there
  t·rsqrt(v) = t/sqrt(v): both are t·(√v)⁻¹ for a real v and 0 for v = +∞. So the two results are equal entry by entry,
  with no appeal to the finiteness of the inputs.

  The pieces: `Spec` (one row in both arrangements), `Law` (their equality), `KPay` (the body's stored value at an
  entry), `KPrefix` (what the operand arrays hold when the region is entered), `KFinal` (from the 25 blocks to the whole
  output array), `RefRun` / `RefBack` (the reference's run and its result as one term), `RefRead` (that term entry
  by entry).
-/
import proofs.«106757_j32676111188087_2_alg».proof.Defs
import proofs.«106757_j32676111188087_2_alg».proof.Proof.Gen.Kernel
import proofs.«106757_j32676111188087_2_alg».proof.Proof.Gen.Kernel.Frame
import proofs.«106757_j32676111188087_2_alg».proof.Proof.Gen.KernelIdeal
import proofs.«106757_j32676111188087_2_alg».proof.Proof.Gen.KernelIdeal.Frame
import proofs.«106757_j32676111188087_2_alg».proof.Proof.Gen.ReferenceIdeal
import proofs.«106757_j32676111188087_2_alg».proof.Proof.Gen.Pre_finite_inputs
import proofs.«106757_j32676111188087_2_alg».proof.Proof.Law
import proofs.«106757_j32676111188087_2_alg».proof.Proof.KFinal
import proofs.«106757_j32676111188087_2_alg».proof.Proof.RefBack
import proofs.«106757_j32676111188087_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.RefBack.run m ρ)

/-- The idealization rewrote nothing. -/
theorem preserves : Cert.preserves_Kernel_KernelIdeal := trivial

/-- The gather / scatter-add prefix is the same composition of host operations in both programs. -/
theorem aggRaw_eq (x : Cert.ReferenceIdeal.RefTerm.FA (F := Ideal) Cert.ReferenceIdeal.S50000x128)
    (ei : Cert.ReferenceIdeal.RefTerm.IA (F := Ideal) Cert.ReferenceIdeal.S2x640000) :
    Cert.ReferenceIdeal.RefTerm.aggRaw (F := Ideal) x ei = Cert.KernelIdeal.KPrefix.aggRaw (F := Ideal) x ei := rfl

theorem distSum_eq (ed : Cert.ReferenceIdeal.RefTerm.FA (F := Ideal) Cert.ReferenceIdeal.S640000)
    (ei : Cert.ReferenceIdeal.RefTerm.IA (F := Ideal) Cert.ReferenceIdeal.S2x640000) :
    Cert.ReferenceIdeal.RefTerm.distSum (F := Ideal) ed ei = Cert.KernelIdeal.KPrefix.distSum (F := Ideal) ed ei := rfl

/-- From memories that agree on the arguments both programs end with the same array: the kernel's output is the first
    arrangement of every row, the reference's the second, and the two arrangements are equal. -/
theorem algebraic : Cert.algebraic_KernelIdeal_ReferenceIdeal := by
  intro m ρ m' ρ' _ hagree
  refine ⟨fun c => Cert.KernelIdeal.KFinal.G m c, Cert.KernelIdeal.KFinal.run m ρ, ?_⟩
  refine (θ_run Cert.ReferenceIdeal.defs _ _).mono (fun _ h c => ⟨(h c).1.trans ?_, (h c).2⟩)
    (Cert.ReferenceIdeal.RefBack.run m' ρ')
  obtain ⟨h0, h1, h2, h3, h4, h5, h6, h7, h8, h9⟩ := hagree c
  rw [Cert.ReferenceIdeal.RefRead.out_eq, ← Cert.Spec.arrK_eq_arrR, aggRaw_eq, distSum_eq, h0, h1, h2, h3, h4, h5, h6, h7, h8, h9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
